-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_3136" .f32 0x39A72F05#32 ((1 / 3136 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256x256 : Shape := ⟨2, ![256, 256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S64x256x56x56 .f32) (main_arg1 : FVec F S256x256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S64x256x56x56 : Shape := ⟨4, ![64, 256, 56, 56]⟩
abbrev S256x256 : Shape := ⟨2, ![256, 256]⟩
abbrev S64x56x56x256 : Shape := ⟨4, ![64, 56, 56, 256]⟩
abbrev S64x3136x256 : Shape := ⟨3, ![64, 3136, 256]⟩
abbrev S4x3136x256 : Shape := ⟨3, ![4, 3136, 256]⟩
abbrev S4x256 : Shape := ⟨2, ![4, 256]⟩
abbrev S4x1x256 : Shape := ⟨3, ![4, 1, 256]⟩

abbrev nBuf : Space → Nat
  | .hbm => 8
  | .vmem => 5
  | .smem => 0
  | _ => 0

abbrev bufTy : (tb : Table) → Fin (tcTables nBuf tb) → BufTy
  | .hbm, ⟨0, _⟩ => ⟨S64x256x56x56, .f32⟩
  | .hbm, ⟨1, _⟩ => ⟨S256x256, .f32⟩
  | .hbm, ⟨2, _⟩ => ⟨S64x56x56x256, .f32⟩
  | .hbm, ⟨3, _⟩ => ⟨S64x3136x256, .f32⟩
  | .hbm, ⟨4, _⟩ => ⟨S256x256, .f32⟩
  | .hbm, ⟨5, _⟩ => ⟨S64x3136x256, .f32⟩
  | .hbm, ⟨6, _⟩ => ⟨S64x56x56x256, .f32⟩
  | .hbm, ⟨7, _⟩ => ⟨S64x256x56x56, .f32⟩
  | .local _ .vmem, ⟨0, _⟩ => ⟨S4x3136x256, .f32⟩
  | .local _ .vmem, ⟨1, _⟩ => ⟨S4x3136x256, .f32⟩
  | .local _ .vmem, ⟨2, _⟩ => ⟨S256x256, .f32⟩
  | .local _ .vmem, ⟨3, _⟩ => ⟨S4x3136x256, .f32⟩
  | .local _ .vmem, ⟨4, _⟩ => ⟨S4x3136x256, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x3136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x3136x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x256x56x56_S64x56x56x256_0_2_3_1 : S64x256x56x56.Transposes [0, 2, 3, 1] S64x56x56x256
  shapeCasts_S64x56x56x256_S64x3136x256 : S64x56x56x256.ShapeCasts S64x3136x256
  transposes_S256x256_S256x256_1_0 : S256x256.Transposes [1, 0] S256x256
  inb_S4x3136x256_S4x3136x256_0_0_0 : ∀ a, (![0, 0, 0] : Fin 3 → Nat) a + S4x3136x256.size a ≤ S4x3136x256.size a
  h_S4x3136x256 : 0 < S4x3136x256.numel
  shapeCasts_S4x3136x256_S4x3136x256 : S4x3136x256.ShapeCasts S4x3136x256
  reduces_S4x3136x256_S4x256 : S4x3136x256.Reduces [1] S4x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4x256_S4x1x256 : S4x256.ShapeCasts S4x1x256
  broadcasts_S4x1x256_S4x3136x256 : S4x1x256.Broadcasts S4x3136x256
  shapeCasts_S64x3136x256_S64x56x56x256 : S64x3136x256.ShapeCasts S64x56x56x256
  transposes_S64x56x56x256_S64x256x56x56_0_3_1_2 : S64x56x56x256.Transposes [0, 3, 1, 2] S64x256x56x56
  dot_S4x256_S256x256_S4x256_1_0_0_1_n_n_wf : DotDims.WF S4x256 S256x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3136x256.size a ≤ S64x3136x256.size a
  hwx0_0 : ∀ i : grid0.Coords, EltTy.bits .f32 = 32 ∨ (Rect.block (s := S64x3136x256) S4x3136x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3136x256.size a ≤ S64x3136x256.size a
  hwx0_2 : ∀ i : grid0.Coords, EltTy.bits .f32 = 32 ∨ (Rect.block (s := S64x3136x256) S4x3136x256.size (cc0_transform_2 i) (hinb0_2 i)).WholeWords (EltTy.packing .f32)

variable [Facts₀]

def dot_S4x256_S256x256_S4x256_1_0_0_1_n_n : DotDims S4x256 S256x256 S4x256 where
  lhsContracting := [1]
  rhsContracting := [0]
  lhsNonContracting := [0]
  rhsNonContracting := [1]
  lhsBatch := []
  rhsBatch := []
  wf := dot_S4x256_S256x256_S4x256_1_0_0_1_n_n_wf

abbrev win0_0 : Pipeline.Window sig grid0 :=
  Pipeline.Window.ofSpec (Memref.whole main_v1) S4x3136x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x3136x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S256x256 : Shape := ⟨2, ![256, 256]⟩
abbrev S64x256x3136 : Shape := ⟨3, ![64, 256, 3136]⟩
abbrev S_ : Shape := ⟨0, ![]⟩
abbrev S64x256x4096 : Shape := ⟨3, ![64, 256, 4096]⟩
abbrev S64x256x1 : Shape := ⟨3, ![64, 256, 1]⟩
abbrev S1x256x2048 : Shape := ⟨3, ![1, 256, 2048]⟩
abbrev S1x256x1 : Shape := ⟨3, ![1, 256, 1]⟩
abbrev S256x1 : Shape := ⟨2, ![256, 1]⟩
abbrev S256x2048 : Shape := ⟨2, ![256, 2048]⟩
abbrev S256 : Shape := ⟨1, ![256]⟩
abbrev S64x256 : Shape := ⟨2, ![64, 256]⟩

abbrev nBuf : Space → Nat
  | .hbm => 27
  | .vmem => 10
  | .smem => 0
  | _ => 0

abbrev bufTy : (tb : Table) → Fin (tcTables nBuf tb) → BufTy
  | .hbm, ⟨0, _⟩ => ⟨S64x256x56x56, .f32⟩
  | .hbm, ⟨1, _⟩ => ⟨S256x256, .f32⟩
  | .hbm, ⟨2, _⟩ => ⟨S64x256x3136, .f32⟩
  | .hbm, ⟨3, _⟩ => ⟨S_, .i32⟩
  | .hbm, ⟨4, _⟩ => ⟨S_, .f32⟩
  | .hbm, ⟨5, _⟩ => ⟨S64x256x4096, .f32⟩
  | .hbm, ⟨6, _⟩ => ⟨S64x256x1, .f32⟩
  | .hbm, ⟨7, _⟩ => ⟨S64x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x256, .f32⟩
  | .hbm, ⟨12, _⟩ => ⟨S64x256, .f32⟩
  | .hbm, ⟨13, _⟩ => ⟨S256x256, .f32⟩
  | .hbm, ⟨14, _⟩ => ⟨S64x256, .f32⟩
  | .hbm, ⟨15, _⟩ => ⟨S64x256, .f32⟩
  | .hbm, ⟨16, _⟩ => ⟨S64x256, .f32⟩
  | .hbm, ⟨17, _⟩ => ⟨S_, .f32⟩
  | .hbm, ⟨18, _⟩ => ⟨S64x256, .f32⟩
  | .hbm, ⟨19, _⟩ => ⟨S64x256, .f32⟩
  | .hbm, ⟨20, _⟩ => ⟨S_, .f32⟩
  | .hbm, ⟨21, _⟩ => ⟨S64x256, .f32⟩
  | .hbm, ⟨22, _⟩ => ⟨S64x256, .f32⟩
  | .hbm, ⟨23, _⟩ => ⟨S64x256x1, .f32⟩
  | .hbm, ⟨24, _⟩ => ⟨S64x256x4096, .f32⟩
  | .hbm, ⟨25, _⟩ => ⟨S64x256x3136, .f32⟩
  | .hbm, ⟨26, _⟩ => ⟨S64x256x56x56, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1, .f32⟩
  | .local _ .vmem, ⟨3, _⟩ => ⟨S1x256x1, .f32⟩
  | .local _ .vmem, ⟨4, _⟩ => ⟨S1x256x2048, .f32⟩
  | .local _ .vmem, ⟨5, _⟩ => ⟨S1x256x2048, .f32⟩
  | .local _ .vmem, ⟨6, _⟩ => ⟨S1x256x1, .f32⟩
  | .local _ .vmem, ⟨7, _⟩ => ⟨S1x256x1, .f32⟩
  | .local _ .vmem, ⟨8, _⟩ => ⟨S1x256x2048, .f32⟩
  | .local _ .vmem, ⟨9, _⟩ => ⟨S1x256x2048, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![64, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S64x256x56x56_S64x256x3136 : S64x256x56x56.ShapeCasts S64x256x3136
  pads_S64x256x3136_S64x256x4096_000_000_09600 : S64x256x3136.Pads (![0, 0, 0] : Fin 3 → Nat) ![0, 0, 960] ![0, 0, 0] S64x256x4096
  h_S_ : 0 < S_.numel
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  shapeCasts_S64x256x1_S64x256 : S64x256x1.ShapeCasts S64x256
  bcast_S_S64x256 : S_.BroadcastsInDim S64x256 (![] : Fin 0 → Fin S64x256.rank)
  transposes_S256x256_S256x256_1_0 : S256x256.Transposes [1, 0] S256x256
  bcast_S64x256_S64x256x1_0_1 : S64x256.BroadcastsInDim S64x256x1 (![0, 1] : Fin 2 → Fin S64x256x1.rank)
  broadcasts_S256x1_S256x2048 : S256x1.Broadcasts S256x2048
  shapeCasts_S256x2048_S1x256x2048 : S256x2048.ShapeCasts S1x256x2048
  slices_S64x256x4096_S64x256x3136_0_0_0 : S64x256x4096.Slices ![0, 0, 0] S64x256x3136
  shapeCasts_S64x256x3136_S64x256x56x56 : S64x256x3136.ShapeCasts S64x256x56x56
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x4096.size a
  hwx0_0 : ∀ i : grid0.Coords, EltTy.bits .f32 = 32 ∨ (Rect.block (s := S64x256x4096) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S64x256x1.size a
  hwx0_1 : ∀ i : grid0.Coords, EltTy.bits .f32 = 32 ∨ (Rect.block (s := S64x256x1) S1x256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S64x256x4096.size a
  hwx1_0 : ∀ i : grid1.Coords, EltTy.bits .f32 = 32 ∨ (Rect.block (s := S64x256x4096) S1x256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S64x256x1.size a
  hwx1_1 : ∀ i : grid1.Coords, EltTy.bits .f32 = 32 ∨ (Rect.block (s := S64x256x1) S1x256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x2048.size a ≤ S64x256x4096.size a
  hwx1_2 : ∀ i : grid1.Coords, EltTy.bits .f32 = 32 ∨ (Rect.block (s := S64x256x4096) S1x256x2048.size (cc1_transform_2 i) (hinb1_2 i)).WholeWords (EltTy.packing .f32)

variable [Facts₀]

def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_v1) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Spec.lean ====
/-
  The mathematical content of the squeeze-and-excite channel gate, stated once over the argument arrays.

  For an activation `x : [64, 256, 56, 56]` (batch, channel, height, width) and a square weight
  `wgt : [256, 256]`, the result at `(n, c, h, w)` is
      x[n, c, h, w] · σ( ∑ₖ ( (∑_{j < 3136} x[n, k, j / 56, j % 56]) · (1 / 3136) ) · wgt[c, k] )
  where σ is the logistic function on the extended reals, `σ z = 1 / (1 + e^(-z))`.  The inner sum is the
  spatial pooling of channel `k` of batch element `n`, the factor `1 / 3136` turns it into the mean, the
  outer sum is the matrix–vector product with the weight's row `c`, and the gate multiplies every spatial
  position of channel `c`.
-/
import Idealize.ShloMosaic.PureOps.Ideal
import Idealize.ShloMosaic.Lib.ValueIdx

noncomputable section

namespace Cert.Spec

open Idealize.ShloMosaic Idealize.ShloMosaic.ValueIdx

/-- The row of the 56 × 56 map that the flattened spatial position `j` lies in. -/
def hOf (j : Fin 3136) : Fin 56 := ⟨j.val / 56, by have := j.isLt; omega⟩
/-- The column of the 56 × 56 map that the flattened spatial position `j` lies in. -/
def wOf (j : Fin 3136) : Fin 56 := ⟨j.val % 56, Nat.mod_lt _ (by decide)⟩

/-- The spatial sum of channel `k` of batch element `n`. -/
def pool (x : (⟨4, ![64, 256, 56, 56]⟩ : Shape).Idx → EReal) (n : Fin 64) (k : Fin 256) : EReal :=
  ∑ j : Fin 3136, x (ix4 n k (hOf j) (wOf j))

/-- The reciprocal of the number of spatial positions, as an extended real. -/
def inv : EReal := ((1 / 3136 : ℝ) : EReal)

/-- The argument of the gate of channel `c` of batch element `n`: the pooled means against row `c` of the weight. -/
def gateArg (x : (⟨4, ![64, 256, 56, 56]⟩ : Shape).Idx → EReal) (wgt : (⟨2, ![256, 256]⟩ : Shape).Idx → EReal)
    (n : Fin 64) (c : Fin 256) : EReal :=
  ∑ k : Fin 256, (pool x n k * inv) * wgt (ix2 c k)

/-- The channel gate's result, index by index. -/
def G (x : (⟨4, ![64, 256, 56, 56]⟩ : Shape).Idx → EReal) (wgt : (⟨2, ![256, 256]⟩ : Shape).Idx → EReal) :
    (⟨4, ![64, 256, 56, 56]⟩ : Shape).Idx → EReal :=
  fun i => x i * Ideal.logistic (gateArg x wgt (i 0) (i 1))

end Cert.Spec

end
-- ==== Proof.KHost.lean ====
/-
  What the grid finds in its two operands.

  Before the grid runs, the activation `x : [64, 256, 56, 56]` is re-laid channel-last and its two spatial axes
  are flattened into one: the first operand, of shape `[64, 3136, 256]`, holds at `(n, j, k)` the entry
  `x[n, k, j / 56, j % 56]`. The weight is transposed: the second operand holds at `(k, c)` the entry `wgt[c, k]`.
-/
import proofs.«130480_g2000206050217453_pallasbulk_295_13_alg».proof.Proof.Gen.KernelIdeal.Frame
import proofs.«130480_g2000206050217453_pallasbulk_295_13_alg».proof.Proof.Spec
import Idealize.ShloMosaic.Lib.Pipeline.Value
import Idealize.ShloMosaic.Lib.ValueIdx
import Idealize.ShloMosaic.Lib.ValueLayout

noncomputable section

namespace Cert.KernelIdeal.KValue

open Cert.KernelIdeal Cert.KernelIdeal.Gen Idealize.ShloMosaic Idealize.ShloMosaic.TcCoe Idealize.ShloMosaic.ValueIdx
open Idealize.SL.Sem

/-- The activation re-laid channel-last with its spatial axes flattened, as a function of the activation. -/
def relaidX (x : S64x256x56x56.Idx → EReal) : S64x3136x256.Idx → EReal :=
  shapeCast S64x3136x256 (transpose S64x56x56x256 [0, 2, 3, 1] x transposes_S64x256x56x56_S64x56x56x256_0_2_3_1)
    shapeCasts_S64x56x56x256_S64x3136x256

/-- The weight transposed, as a function of the weight. -/
def relaidW (w : S256x256.Idx → EReal) : S256x256.Idx → EReal :=
  transpose S256x256 [1, 0] w transposes_S256x256_S256x256_1_0

/-- The re-laid activation at `(n, j, k)` is the activation at `(n, k, j / 56, j % 56)`: the flattened position `j`
    is row `j / 56`, column `j % 56` (row-major), and the channel moved from the second axis to the last. -/
theorem relaidX_apply (x : S64x256x56x56.Idx → EReal) (n : Fin 64) (j : Fin 3136) (k : Fin 256) :
    relaidX x (ix3 n j k) = x (ix4 n k (Cert.Spec.hOf j) (Cert.Spec.wOf j)) := by
  unfold relaidX
  refine (shapeCast_apply _ shapeCasts_S64x56x56x256_S64x3136x256 (ix3 n j k)
    (ix4 n (Cert.Spec.hOf j) (Cert.Spec.wOf j) k) ?_).trans ?_
  · rw [Shape.rowMajor_val_four, Shape.rowMajor_val_three]
    show ((n.val * 56 + j.val / 56) * 56 + j.val % 56) * 256 + k.val = (n.val * 3136 + j.val) * 256 + k.val
    omega
  · exact transpose_apply _ x transposes_S64x256x56x56_S64x56x56x256_0_2_3_1 _ _ fun b =>
      match b with
      | ⟨0, _⟩ => rfl
      | ⟨1, _⟩ => rfl
      | ⟨2, _⟩ => rfl
      | ⟨3, _⟩ => rfl

/-- The transposed weight at `(k, c)` is the weight at `(c, k)`. -/
theorem relaidW_apply (w : S256x256.Idx → EReal) (k : Fin 256) (c : Fin 256) :
    relaidW w (ix2 k c) = w (ix2 c k) := by
  unfold relaidW
  exact transpose_ix2_apply w transposes_S256x256_S256x256_1_0 k c

variable (m : (ℓ : Loc nD τ sig) → Buf (Elt Ideal) ℓ)

/-- The grid's first operand, as it finds it, is the re-laid activation. -/
theorem V_v1 (c : Dev nD) :
    (V m c main_v1 : S64x3136x256.Idx → EReal) = relaidX (m ((c : Thread nD τ).loc main_arg0)) := by
  show StableHlo.after hostOps0 (fun b => m (c, b)) (Proc.devRef .tc main_v1) = _
  after_results
  rfl

/-- The grid's second operand, as it finds it, is the transposed weight. -/
theorem V_v2 (c : Dev nD) :
    (V m c main_v2 : S256x256.Idx → EReal) = relaidW (m ((c : Thread nD τ).loc main_arg1)) := by
  show StableHlo.after hostOps0 (fun b => m (c, b)) (Proc.devRef .tc main_v2) = _
  after_results
  rfl

end Cert.KernelIdeal.KValue

end
-- ==== Proof.KBody.lean ====
/-
  The arithmetic of one grid step, read at one entry.

  One grid step holds four batch elements: a block `x0 : [4, 3136, 256]` (batch, flattened spatial position,
  channel) of the re-laid activation and the whole re-laid weight `x1 : [256, 256]` (input channel, output channel).
  Its result at `(b, r, c)` is
      x0[b, r, c] · σ( ∑ₖ ( (∑_{r'} x0[b, r', k]) · (1 / 3136) ) · x1[k, c] ):
  the sum over the spatial axis is the pooling of channel `k`, the named reciprocal turns it into the mean, the
  contraction over `k` is the product with the weight, σ is the logistic function, and the gate of `(b, c)` is
  repeated along the spatial axis before it multiplies the block. The two zeros the step starts its sums from (the
  reduction's accumulator and the product's accumulator) are the extended real `0` and drop out by `0 + a = a`.
-/
import proofs.«130480_g2000206050217453_pallasbulk_295_13_alg».proof.Proof.Gen.KernelIdeal.Skeleton
import proofs.«130480_g2000206050217453_pallasbulk_295_13_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.KValue

open Cert.KernelIdeal Cert.KernelIdeal.Gen Idealize.ShloMosaic Idealize.ShloMosaic.ValueIdx

/-- The named reciprocal is the rational `1 / 3136`, by the certificate's table. -/
theorem inv_named : Named.named (F := Ideal) κ "inv_3136" (φ := .f32) 0x39A72F05#32 = Cert.Spec.inv :=
  IdealRules.named_const.ideal_named_scalar _ _ _ _ rfl

/-- The sum over the spatial axis of a `[4, 3136, 256]` block, at `(b, k)`: the block's entries `(b, r, k)` over all `r`. -/
theorem laneSum_apply (x : FVec Ideal S4x3136x256 .f32) (b : Fin 4) (k : Fin 256) :
    multiReduction (F := Ideal) .add [1] S4x256 x 0x00000000#32 reduces_S4x3136x256_S4x256 (.inl rfl) rfl (ix2 b k)
      = ∑ r : Fin 3136, x (ix3 b r k) := by
  refine (Ideal.multiReduction_add_single x 0x00000000#32 reduces_S4x3136x256_S4x256 (.inl rfl) rfl (ix2 b k)).trans ?_
  refine Finset.sum_congr rfl fun r _ => congrArg x ?_
  funext a; apply Fin.ext
  match a with
  | ⟨0, _⟩ => rfl
  | ⟨1, _⟩ => rfl
  | ⟨2, _⟩ => rfl

/-- The product of a `[4, 256]` by a `[256, 256]` matrix into the zero accumulator, at `(b, c)`: the sum over the
    contracted coordinate `k` of the products of the entries `(b, k)` and `(k, c)`. -/
theorem product_apply (A : FVec Ideal S4x256 .f32) (B : FVec Ideal S256x256 .f32) (b : Fin 4) (c : Fin 256) :
    matmul dot_S4x256_S256x256_S4x256_1_0_0_1_n_n none A B (constant (F := Ideal) S4x256 .f32 0x00000000#32) (ix2 b c)
      = ∑ k : Fin 256, A (ix2 b k) * B (ix2 k c) := by
  show FloatOps.matmul dot_S4x256_S256x256_S4x256_1_0_0_1_n_n none A B _ (ix2 b c) = _
  rw [Ideal.matmul_constant_zero_apply,
    ← Equiv.sum_comp (contrEquiv1 dot_S4x256_S256x256_S4x256_1_0_0_1_n_n 256 rfl rfl).symm]
  refine Finset.sum_congr rfl fun k _ => ?_
  have ck := contrEquiv1_symm_val dot_S4x256_S256x256_S4x256_1_0_0_1_n_n 256 rfl rfl k
  have l : dot_S4x256_S256x256_S4x256_1_0_0_1_n_n.lhsIdx (ix2 b c)
      ((contrEquiv1 dot_S4x256_S256x256_S4x256_1_0_0_1_n_n 256 rfl rfl).symm k) = ix2 b k := by
    funext ax; apply Fin.ext
    match ax with
    | ⟨0, _⟩ => simp [DotDims.lhsIdx, dot_S4x256_S256x256_S4x256_1_0_0_1_n_n]; rfl
    | ⟨1, _⟩ => simp [DotDims.lhsIdx, dot_S4x256_S256x256_S4x256_1_0_0_1_n_n]; exact ck
  have r : dot_S4x256_S256x256_S4x256_1_0_0_1_n_n.rhsIdx (ix2 b c)
      ((contrEquiv1 dot_S4x256_S256x256_S4x256_1_0_0_1_n_n 256 rfl rfl).symm k) = ix2 k c := by
    funext ax; apply Fin.ext
    match ax with
    | ⟨0, _⟩ => simp [DotDims.rhsIdx, dot_S4x256_S256x256_S4x256_1_0_0_1_n_n]; exact ck
    | ⟨1, _⟩ => simp [DotDims.rhsIdx, dot_S4x256_S256x256_S4x256_1_0_0_1_n_n]; rfl
  rw [l, r]

/-- A `[4, 256]` matrix given a unit middle axis reads, at `(b, u, c)`, the matrix at `(b, c)`. -/
theorem unitAxis_apply (v : FVec Ideal S4x256 .f32) (b : Fin 4) (u : Fin 1) (c : Fin 256) :
    shapeCast S4x1x256 v shapeCasts_S4x256_S4x1x256 (ix3 b u c) = v (ix2 b c) :=
  shapeCast_apply v shapeCasts_S4x256_S4x1x256 _ _ (by
    have hu : u.val = 0 := by omega
    rw [Shape.rowMajor_val_three, Shape.rowMajor_val_two]
    show b.val * 256 + c.val = (b.val * 1 + u.val) * 256 + c.val
    rw [hu]; omega)

/-- A `[4, 1, 256]` array repeated along its middle axis reads, at `(b, r, c)`, the array at `(b, 0, c)`. -/
theorem repeat_apply (v : FVec Ideal S4x1x256 .f32) (b : Fin 4) (r : Fin 3136) (c : Fin 256) :
    broadcastTo S4x3136x256 v broadcasts_S4x1x256_S4x3136x256 (ix3 b r c) = v (ix3 b (0 : Fin 1) c) := by
  refine broadcastTo_apply v broadcasts_S4x1x256_S4x3136x256 (ix3 b r c) (ix3 b (0 : Fin 1) c) fun ax => ?_
  match ax with
  | ⟨0, _⟩ => rfl
  | ⟨1, _⟩ => rfl
  | ⟨2, _⟩ => rfl

/-- THE STEP'S RESULT AT AN ENTRY: the block's entry times the logistic gate of its batch element and channel. -/
theorem pay_apply (x0 : Vec Ideal S4x3136x256 .f32) (x1 : Vec Ideal S256x256 .f32) (b : Fin 4) (r : Fin 3136) (c : Fin 256) :
    k0_pay1 (F := Ideal) x0 x1 (ix3 b r c)
      = x0 (ix3 b r c) * Ideal.logistic (∑ k : Fin 256, ((∑ r' : Fin 3136, x0 (ix3 b r' k)) * Cert.Spec.inv) * x1 (ix2 k c)) := by
  unfold k0_pay1
  simp only [shapeCast_self]
  refine congrArg (x0 (ix3 b r c) * ·) ?_
  refine (repeat_apply _ b r c).trans ?_
  refine (unitAxis_apply _ b 0 c).trans ?_
  show Ideal.logistic _ = _
  refine congrArg Ideal.logistic ?_
  refine (product_apply _ _ b c).trans ?_
  refine Finset.sum_congr rfl fun k _ => ?_
  refine congrArg (· * x1 (ix2 k c)) ?_
  show _ * _ = _
  rw [laneSum_apply, broadcast_apply, inv_named]

end Cert.KernelIdeal.KValue

end
-- ==== Proof.KBlocks.lean ====
/-
  From the grid's steps to the whole result array.

  The grid has sixteen steps; step `t` works on batch elements `4t … 4t + 3`: its first operand's block is rows
  `4t … 4t + 3` of the `[64, 3136, 256]` re-laid activation, its second operand's block is the whole `[256, 256]`
  re-laid weight at every step, and it writes rows `4t … 4t + 3` of the `[64, 3136, 256]` result. Since the gate of a batch
  element depends only on that element's own rows, what step `t` writes is the restriction to its rows of ONE function
  of the two whole operands,
      out[n, r, c] = a[n, r, c] · σ( ∑ₖ ( (∑_{r'} a[n, r', k]) · (1 / 3136) ) · w[k, c] ),
  and since row `n` lies in the block of step `n / 4`, the sixteen blocks cover the array: after the grid the result
  array is that function.
-/
import proofs.«130480_g2000206050217453_pallasbulk_295_13_alg».proof.Proof.Gen.KernelIdeal.Frame
import proofs.«130480_g2000206050217453_pallasbulk_295_13_alg».proof.Proof.KBody
import Idealize.ShloMosaic.Lib.Pipeline.Value

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)

/-- The gate of batch element `n` and channel `c`, from the two whole operands. -/
def gate (a : S64x3136x256.Idx → EReal) (w : S256x256.Idx → EReal) (n : Fin 64) (c : Fin 256) : EReal :=
  Ideal.logistic (∑ k : Fin 256, ((∑ r : Fin 3136, a (ix3 n r k)) * Cert.Spec.inv) * w (ix2 k c))

/-- The grid's result array as one function of its two whole operands. -/
def gridOut (a : S64x3136x256.Idx → EReal) (w : S256x256.Idx → EReal) : S64x3136x256.Idx → EReal :=
  fun i => a i * gate a w (i 0) (i 2)

/-- ONE STEP AGAINST THE WHOLE: if the step's first block is rows `4T … 4T + 3` of `a` and its second block is `w`,
    then the step's result at `j` is `gridOut a w` at the entry of row `4T + j₀` with the same other coordinates. -/
theorem step_eq (a : S64x3136x256.Idx → EReal) (w : S256x256.Idx → EReal)
    (x0 : Vec Ideal S4x3136x256 .f32) (x1 : Vec Ideal S256x256 .f32) (T : Nat)
    (h0 : ∀ (b : Fin 4) (r : Fin 3136) (k : Fin 256) (n : Fin 64), n.val = 4 * T + b.val → x0 (ix3 b r k) = a (ix3 n r k))
    (h1 : ∀ (k : Fin 256) (c : Fin 256), x1 (ix2 k c) = w (ix2 k c))
    (j : S4x3136x256.Idx) (i : S64x3136x256.Idx)
    (hi0 : (i 0).val = 4 * T + (j 0).val) (hi1 : (i 1).val = (j 1).val) (hi2 : (i 2).val = (j 2).val) :
    k0_pay1 (F := Ideal) x0 x1 j = gridOut a w i := by
  obtain ⟨b, r, c, rfl⟩ : ∃ (b : Fin 4) (r : Fin 3136) (c : Fin 256), j = ix3 b r c := ⟨j 0, j 1, j 2, eq_ix3 j⟩
  obtain ⟨n, r', c', rfl⟩ : ∃ (n : Fin 64) (r' : Fin 3136) (c' : Fin 256), i = ix3 n r' c' := ⟨i 0, i 1, i 2, eq_ix3 i⟩
  have hn : n.val = 4 * T + b.val := hi0
  obtain rfl : r' = r := Fin.ext hi1
  obtain rfl : c' = c := Fin.ext hi2
  rw [pay_apply]
  show _ = a (ix3 n r' c') * gate a w n c'
  unfold gate
  rw [h0 b r' c' n hn]
  refine congrArg (fun z => a (ix3 n r' c') * Ideal.logistic z) ?_
  refine Finset.sum_congr rfl fun k _ => ?_
  rw [h1 k c', Finset.sum_congr rfl fun q _ => h0 b q k n hn]

theorem hz3 : (![0, 0, 0] : Fin 3 → Nat) = fun _ => 0 := funext fun a => by fin_cases a <;> rfl
theorem hz2 : (![0, 0] : Fin 2 → Nat) = fun _ => 0 := funext fun a => by fin_cases a <;> rfl

/-- The three windows' block indices at step `t`, decided over the sixteen steps: the first operand's and the result's
    blocks move along the batch axis with the step, the second operand's block stays. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

variable (m : (ℓ : Loc nD τ sig) → Buf (Elt Ideal) ℓ)

/-- The first operand's block at step `t` is rows `4t … 4t + 3` of the operand as the grid finds it. -/
theorem iblk0_apply (c : Dev nD) (t : Fin cfg0.N) (b : Fin 4) (r : Fin 3136) (k : Fin 256) (n : Fin 64)
    (hn : n.val = 4 * t.val + b.val) :
    (iblk m c 0 t : Vec Ideal S4x3136x256 .f32) (ix3 b r k) = (V m c main_v1 : S64x3136x256.Idx → EReal) (ix3 n r k) := by
  obtain ⟨e0, e1, e2, -⟩ := idx_facts t
  unfold iblk
  rw [View.read_apply]
  show V m c main_v1 _ = V m c main_v1 _
  refine congrArg (V m c main_v1) ?_
  funext a
  apply Fin.ext
  match a with
  | ⟨0, _⟩ => show win0_0.index t (0 : Fin 3) * 4 + 1 * b.val = n.val; omega
  | ⟨1, _⟩ => show win0_0.index t (1 : Fin 3) * 3136 + 1 * r.val = r.val; omega
  | ⟨2, _⟩ => show win0_0.index t (2 : Fin 3) * 256 + 1 * k.val = k.val; omega

/-- The second operand's block at every step is the whole operand as the grid finds it. -/
theorem iblk1_apply (c : Dev nD) (t : Fin cfg0.N) (k : Fin 256) (q : Fin 256) :
    (iblk m c 1 t : Vec Ideal S256x256 .f32) (ix2 k q) = (V m c main_v2 : S256x256.Idx → EReal) (ix2 k q) := by
  obtain ⟨-, -, -, e3, e4, -⟩ := idx_facts t
  unfold iblk
  rw [View.read_apply]
  show V m c main_v2 _ = V m c main_v2 _
  refine congrArg (V m c main_v2) ?_
  funext a
  apply Fin.ext
  match a with
  | ⟨0, _⟩ => show win0_1.index t (0 : Fin 2) * 256 + 1 * k.val = k.val; omega
  | ⟨1, _⟩ => show win0_1.index t (1 : Fin 2) * 256 + 1 * q.val = q.val; omega

/-- WHAT STEP `t` WRITES BACK is block `t` of `gridOut` of the two operands as the grid finds them. -/
theorem flushed_eq (c : Dev nD) (t : Fin cfg0.N) :
    (dats m 0 c).flushed 2 t
      = ((cfg0.win 2).blk t).view.read (Elt Ideal) (gridOut (V m c main_v1) (V m c main_v2)) := by
  show (cfg0.win 2).cut (grid0.coords t) ((dats m 0 c).after 2 t) = _
  rw [after0_2]
  unfold out0_2
  rw [View.canon_unit_zero hz3]
  simp only [View.ld_unit_zero (S := S4x3136x256) hz3, View.ld_unit_zero (S := S256x256) hz2]
  obtain ⟨-, -, -, -, -, e5, e6, e7⟩ := idx_facts t
  funext j
  show k0_pay1 (F := Ideal) (iblk m c 0 t) (iblk m c 1 t) j
    = gridOut (V m c main_v1) (V m c main_v2) (((cfg0.win 2).blk t).view.emb j)
  refine step_eq (V m c main_v1) (V m c main_v2) (iblk m c 0 t) (iblk m c 1 t) t.val
    (fun b r k n hn => iblk0_apply m c t b r k n hn) (fun k q => iblk1_apply m c t k q) j
    (((cfg0.win 2).blk t).view.emb j) ?_ ?_ ?_
  · show win0_2.index t (0 : Fin 3) * 4 + 1 * (j 0).val = 4 * t.val + (j 0).val; omega
  · show win0_2.index t (1 : Fin 3) * 3136 + 1 * (j 1).val = (j 1).val; omega
  · show win0_2.index t (2 : Fin 3) * 256 + 1 * (j 2).val = (j 2).val; omega

/-- An entry of the result array is in step `t`'s block iff each coordinate is in the block's range on its axis. -/
theorem mem_blk (t : Fin cfg0.N) (i : S64x3136x256.Idx) :
    i ∈ ((cfg0.win 2).blk t).view.set ↔ ∀ a : Fin 3, win0_2.index t a * S4x3136x256.size a ≤ (i a).val
      ∧ (i a).val < win0_2.index t a * S4x3136x256.size a + S4x3136x256.size a := by
  show i ∈ ((View.whole main_v3).slice (win0_2.rect t)).set ↔ _
  rw [View.set_slice_whole, Rect.mem_set_unit]
  exact Iff.rfl

/-- Every entry of the result array is in some step's block: row `n` is written by step `n / 4`. -/
theorem cover (i : S64x3136x256.Idx) :
    ∃ t : Fin cfg0.N, (cfg0.win 2).flush t = true ∧ i ∈ ((cfg0.win 2).blk t).view.set := by
  have hi0 : (i 0).val < 64 := (i 0).isLt
  have hi1 : (i 1).val < 3136 := (i 1).isLt
  have hi2 : (i 2).val < 256 := (i 2).isLt
  have hN : grid0.N = 16 := N_0
  let t : Fin cfg0.N := ⟨(i 0).val / 4, by show (i 0).val / 4 < grid0.N; omega⟩
  obtain ⟨-, -, -, -, -, e5, e6, e7⟩ := idx_facts t
  have e5' : win0_2.index t (0 : Fin 3) = (i 0).val / 4 := e5
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 3136 ≤ (i 1).val ∧ (i 1).val < win0_2.index t (1 : Fin 3) * 3136 + 3136; omega
  | ⟨2, _⟩ => show win0_2.index t (2 : Fin 3) * 256 ≤ (i 2).val ∧ (i 2).val < win0_2.index t (2 : Fin 3) * 256 + 256; omega

/-- THE RESULT ARRAY AFTER THE GRID is `gridOut` of the two operands as the grid finds them. -/
theorem final (c : Dev nD) :
    (dats m 0 c).arrAt 2 cfg0.N = gridOut (V m c main_v1) (V m c main_v2) :=
  (dats m 0 c).arrAt_eq_of_cover 2 (gridOut (V m c main_v1) (V m c main_v2)) (fun t _ => flushed_eq m c t) cover

end Cert.KernelIdeal.KValue

end
-- ==== Proof.KRun.lean ====
/-
  The run of the whole program, read against the specification.

  After the grid, the `[64, 3136, 256]` result is un-flattened to `[64, 56, 56, 256]` and re-laid channel-second: the
  program's result holds at `(n, k, h, w)` the grid's result at `(n, 56 h + w, k)`. The grid's result is
  `gridOut` of its two operands, the operands are the re-laid activation and the transposed weight, and re-laying
  there and back returns every entry to its place: at `(n, k, h, w)` the result is
      x[n, k, h, w] · σ( ∑ₖ' ( (∑ⱼ x[n, k', j / 56, j % 56]) · (1 / 3136) ) · wgt[k, k'] ),
  which is the specification's `G`, term by term (no law of the extended reals is used beyond `0 + a = a`,
  which the step's lemma has already spent). The two arguments are never written.
-/
import proofs.«130480_g2000206050217453_pallasbulk_295_13_alg».proof.Proof.Gen.KernelIdeal.Frame
import proofs.«130480_g2000206050217453_pallasbulk_295_13_alg».proof.Proof.Spec
import proofs.«130480_g2000206050217453_pallasbulk_295_13_alg».proof.Proof.KHost
import proofs.«130480_g2000206050217453_pallasbulk_295_13_alg».proof.Proof.KBlocks
import Idealize.ShloMosaic.Lib.Pipeline.Value

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)

/-- The grid's result un-flattened and re-laid channel-second, as a function of the grid's result. -/
def tail (o : S64x3136x256.Idx → EReal) : S64x256x56x56.Idx → EReal :=
  transpose S64x256x56x56 [0, 3, 1, 2] (shapeCast S64x56x56x256 o shapeCasts_S64x3136x256_S64x56x56x256)
    transposes_S64x56x56x256_S64x256x56x56_0_3_1_2

/-- At `(n, k, h, w)` it reads the grid's result at `(n, j, k)` with `j = 56 h + w`. -/
theorem tail_apply (o : S64x3136x256.Idx → EReal) (n : Fin 64) (k : Fin 256) (h w : Fin 56) (j : Fin 3136)
    (hj : j.val = h.val * 56 + w.val) : tail o (ix4 n k h w) = o (ix3 n j k) := by
  unfold tail
  refine (transpose_apply _ _ transposes_S64x56x56x256_S64x256x56x56_0_3_1_2 (ix4 n k h w) (ix4 n h w k) fun b =>
      match b with
      | ⟨0, _⟩ => rfl
      | ⟨1, _⟩ => rfl
      | ⟨2, _⟩ => rfl
      | ⟨3, _⟩ => rfl).trans ?_
  refine shapeCast_apply o shapeCasts_S64x3136x256_S64x56x56x256 (ix4 n h w k) (ix3 n j k) ?_
  rw [Shape.rowMajor_val_four, Shape.rowMajor_val_three]
  show (n.val * 3136 + j.val) * 256 + k.val = ((n.val * 56 + h.val) * 56 + w.val) * 256 + k.val
  omega

/-- RE-LAYING THERE AND BACK: the tail of the grid's function of the re-laid arguments is the specification. -/
theorem tail_gridOut (x : S64x256x56x56.Idx → EReal) (wg : S256x256.Idx → EReal) :
    tail (gridOut (relaidX x) (relaidW wg)) = Cert.Spec.G x wg := by
  funext i
  obtain ⟨n, k, h, w, rfl⟩ : ∃ (n : Fin 64) (k : Fin 256) (h : Fin 56) (w : Fin 56), i = ix4 n k h w :=
    ⟨i 0, i 1, i 2, i 3, eq_ix4 i⟩
  have hh : h.val < 56 := h.isLt
  have hw : w.val < 56 := w.isLt
  have hj : h.val * 56 + w.val < 3136 := by omega
  have e1 : Cert.Spec.hOf ⟨h.val * 56 + w.val, hj⟩ = h := Fin.ext (by show (h.val * 56 + w.val) / 56 = h.val; omega)
  have e2 : Cert.Spec.wOf ⟨h.val * 56 + w.val, hj⟩ = w := Fin.ext (by show (h.val * 56 + w.val) % 56 = w.val; omega)
  rw [tail_apply _ n k h w ⟨h.val * 56 + w.val, hj⟩ rfl]
  show relaidX x (ix3 n ⟨h.val * 56 + w.val, hj⟩ k) * gate (relaidX x) (relaidW wg) n k
    = x (ix4 n k h w) * Ideal.logistic (Cert.Spec.gateArg x wg n k)
  rw [relaidX_apply, e1, e2]
  unfold gate Cert.Spec.gateArg Cert.Spec.pool
  simp only [relaidX_apply, relaidW_apply]

variable (m : (ℓ : Loc nD τ sig) → Buf (Elt Ideal) ℓ) (ρ : Dev nD → PrngReg)

/-- After the operations that follow the grid, the program's result is the tail of the grid's result array. -/
theorem after_tail (c : Dev nD) :
    (Pipeline.afterTail₀ cfgs (dats m) 0 (V0 m) [hostOps1] c main_v5 : S64x256x56x56.Idx → EReal)
      = tail ((dats m 0 c).arrAt 2 cfg0.N) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v3)
      = (dats m 0 c).arrAt 2 cfg0.N := Pipeline.withArrays_arr spec0 launch0.win.arr_inj c _ _ 2
  rw [e]
  rfl

/-- The program's result, from the arguments: the specification. -/
theorem result_eq (c : Dev nD) :
    (Pipeline.afterTail₀ cfgs (dats m) 0 (V0 m) [hostOps1] c main_v5 : S64x256x56x56.Idx → EReal)
      = Cert.Spec.G (m ((c.tc : Thread nD τ).loc main_arg0)) (m ((c.tc : Thread nD τ).loc main_arg1)) := by
  rw [after_tail, final, V_v1, V_v2]
  exact tail_gridOut _ _

/-- THE RUN: every weakly fair execution of the program terminates; its result is the specification's function of the
    two arguments, and the arguments end as they were. -/
theorem run : θ_run (defs (F := Ideal)) (onTc (τ := τ) (main (F := Ideal))) ⟨m, fun _ => 0, ρ⟩ (fun r => ∀ c : Dev nD,
      r.2.mem ((c.tc : Thread nD τ).loc main_v5)
        = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v5 (Pipeline.mem_restRefs_of main_v5 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue

end
-- ==== Proof.RRun.lean ====
/-
  The reference program's run with its result named.

  The reference is two kernel regions among four stretches of host operations.  The buffer contents at each
  boundary are a fold from the launch memory: `W1`, `W2` after the first two stretches, `W3` after the pooling
  region, `W4` after the gate's host operations, `W5` after the scaling region and `W6` at the return.  Every
  weakly fair execution terminates with every unscoped buffer at `W6`; read at the result buffer and at the two
  argument buffers this is the statement below.
-/
import proofs.«130480_g2000206050217453_pallasbulk_295_13_alg».proof.Defs
import proofs.«130480_g2000206050217453_pallasbulk_295_13_alg».proof.Proof.Gen.ReferenceIdeal.Frame

set_option maxRecDepth 16384

noncomputable section

namespace Cert.ReferenceIdeal.RefRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates, nothing faulting, with the result buffer at the last
    boundary's contents and the two argument buffers as launched. -/
theorem run : θ_run defs (onTc (τ := τ) (main (F := F))) ⟨m, fun _ => 0, ρ⟩ (fun r => ∀ c : Dev nD,
      r.2.mem ((c.tc : Thread nD τ).loc main_v18) = W6 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v18 (by decide)),
       (h c _ (mem_uc main_arg0 (by decide))).trans (W6_main_arg0 m ρ c),
       (h c _ (mem_uc main_arg1 (by decide))).trans (W6_main_arg1 m ρ c)⟩)

end Cert.ReferenceIdeal.RefRun

end
-- ==== Proof.RHost.lean ====
/-
  The reference's host operations, read as functions of what they consume.

  Before the pooling region the activation is flattened to [64, 256, 3136] and padded with zeros to 4096 lanes
  (`padded`).  Between the two regions the pooled sums P : [64, 256, 1] become the gate (`gate`): the sums are
  scaled by 1 / 3136, multiplied into the transposed weight, and passed through 1 / (1 + e^(-z)).  After the
  scaling region the first 3136 lanes are cut out and unflattened to [64, 256, 56, 56] (`unpadded`).
  Each boundary's contents of the run is identified with one of these functions.
-/
import proofs.«130480_g2000206050217453_pallasbulk_295_13_alg».proof.Defs
import proofs.«130480_g2000206050217453_pallasbulk_295_13_alg».proof.Proof.Gen.ReferenceIdeal.Frame
import Idealize.ShloMosaic.Lib.StableHlo.Run
import Idealize.ShloMosaic.Lib.Pipeline.Value
import Idealize.ShloMosaic.Lib.ValueIdx

set_option maxRecDepth 16384

noncomputable section

namespace Cert.ReferenceIdeal.RefHost

open Idealize.ShloMosaic Idealize.ShloMosaic.TcCoe Idealize.ShloMosaic.Tactic Idealize.SL.Sem
open Idealize.ShloMosaic.StableHlo
open Idealize.ShloMosaic.Pipeline (Dat)
open Cert.ReferenceIdeal Cert.ReferenceIdeal.Gen

variable (m : (ℓ : Loc nD τ sig) → Buf (Elt Ideal) ℓ) (ρ : Dev nD → PrngReg)

/-- The activation flattened over its two spatial axes and padded with the integer zero, converted, to 4096 lanes. -/
def padded (x : FVec Ideal S64x256x56x56 .f32) : FVec Ideal S64x256x4096 .f32 :=
  pad S64x256x4096 ![0, 0, 0] ![0, 0, 960] ![0, 0, 0]
    (shapeCast S64x256x3136 x shapeCasts_S64x256x56x56_S64x256x3136)
    (sitofp (F := Ideal) .f32 (constantI S_ 32 0#32)) pads_S64x256x3136_S64x256x4096_000_000_09600 h_S_

/-- The gate column from the pooled sums `P` and the weight: 1 / (1 + exp (-( (P · (1 / 3136)) · wgtᵀ ))). -/
def gate (P : FVec Ideal S64x256x1 .f32) (wgt : FVec Ideal S256x256 .f32) : FVec Ideal S64x256x1 .f32 :=
  broadcastInDim S64x256x1 ![0, 1] bcast_S64x256_S64x256x1_0_1
    (Host.divf (F := Ideal) (φ := .f32)
      (broadcastInDim S64x256 ![] bcast_S_S64x256 (constant (F := Ideal) S_ .f32 0x3F800000#32))
      (addf (F := Ideal) (φ := .f32)
        (broadcastInDim S64x256 ![] bcast_S_S64x256 (constant (F := Ideal) S_ .f32 0x3F800000#32))
        (Host.exp (F := Ideal) (φ := .f32)
          (Host.negf (F := Ideal) (φ := .f32)
            (Host.dotGeneral (F := Ideal) (φ₁ := .f32) (φ₂ := .f32) dot_S64x256_S256x256_S64x256_1_0_0_1_n_n none
              (mulf (F := Ideal) (φ := .f32)
                (shapeCast S64x256 P shapeCasts_S64x256x1_S64x256)
                (broadcastInDim S64x256 ![] bcast_S_S64x256
                  (Host.divf (F := Ideal) (φ := .f32) (constant (F := Ideal) S_ .f32 0x3F800000#32)
                    (constant (F := Ideal) S_ .f32 0x45440000#32))))
              (transpose S256x256 [1, 0] wgt transposes_S256x256_S256x256_1_0))))))

/-- The first 3136 lanes of a [64, 256, 4096] array, unflattened to [64, 256, 56, 56]. -/
def unpadded (y : FVec Ideal S64x256x4096 .f32) : FVec Ideal S64x256x56x56 .f32 :=
  shapeCast S64x256x56x56
    (extractStridedSlice S64x256x3136 ![0, 0, 0] y slices_S64x256x4096_S64x256x3136_0_0_0)
    shapeCasts_S64x256x3136_S64x256x56x56

/-- The pooling region is entered with its input array at the padded activation. -/
theorem V2_v1 (c : Dev nD) :
    (V2 m ρ c main_v1 : FVec Ideal S64x256x4096 .f32) = padded (m ((c : Thread nD τ).loc main_arg0)) := by
  show StableHlo.after hostOps0_1 (StableHlo.after hostOps0 (W0 m ρ c)) (Proc.devRef .tc main_v1) = _
  after_results
  rfl

/-- The weight is untouched up to the pooling region. -/
theorem W2_arg1 (c : Dev nD) :
    W2 m ρ c (Proc.devRef .tc main_arg1) = m ((c : Thread nD τ).loc main_arg1) := by
  show StableHlo.after hostOps0_1 (StableHlo.after hostOps0 (W0 m ρ c)) (Proc.devRef .tc main_arg1) = _
  after_results

/-- The scaling region finds the padded activation where the pooling region found it: an input array is not
    written by its region, and no host operation in between writes it. -/
theorem V4_v1 (c : Dev nD) : V4 m ρ c main_v1 = V2 m ρ c main_v1 := by
  show StableHlo.after hostOps1 (W3 m ρ c) (Proc.devRef .tc main_v1) = _
  after_results
  exact (W3_arr m ρ c 0).trans (((dat0 (V2 m ρ) c).arrAt_in 0 rfl _).trans (A_eq0 (V2 m ρ) c 0))

/-- The scaling region finds the gate of the pooled sums in its second operand. -/
theorem V4_v15 (c : Dev nD) :
    (V4 m ρ c main_v15 : FVec Ideal S64x256x1 .f32)
      = gate ((dat0 (V2 m ρ) c).arrAt 1 cfg0.N) (m ((c : Thread nD τ).loc main_arg1)) := by
  have e2 : W3 m ρ c (Proc.devRef .tc main_v2) = (dat0 (V2 m ρ) c).arrAt 1 cfg0.N := W3_arr m ρ c 1
  have e1 : W3 m ρ c (Proc.devRef .tc main_arg1) = m ((c : Thread nD τ).loc main_arg1) :=
    (W3_of_ne m ρ c main_arg1 (by exact (by decide : ∀ w, Pipeline.arrRef spec0 w ≠ main_arg1))).trans (W2_arg1 m ρ c)
  show StableHlo.after hostOps1 (W3 m ρ c) (Proc.devRef .tc main_v15) = _
  after_results
  rw [e1, e2]
  rfl

/-- The result is the scaling region's output array, cut back to 3136 lanes and unflattened. -/
theorem W6_v18 (c : Dev nD) :
    (W6 m ρ c (Proc.devRef .tc main_v18) : FVec Ideal S64x256x56x56 .f32)
      = unpadded ((dat1 (V4 m ρ) c).arrAt 2 cfg1.N) := by
  have e : W5 m ρ c (Proc.devRef .tc main_v16) = (dat1 (V4 m ρ) c).arrAt 2 cfg1.N := W5_arr m ρ c 2
  show StableHlo.after hostOps2 (W5 m ρ c) (Proc.devRef .tc main_v18) = _
  after_results
  rw [e]
  rfl

end Cert.ReferenceIdeal.RefHost

end
-- ==== Proof.RAlg.lean ====
/-
  The reference's host operations read at an index.

  `padded x` at lane `l` of channel `k` of batch element `n` is `x[n, k, l / 56, l % 56]` below lane 3136 and zero
  from there on; `gate P wgt` at `(n, c, 0)` is the logistic function of the pooled sums of batch element `n`,
  each scaled by 1 / 3136, against row `c` of the weight; `unpadded y` at `(n, c, h, w)` is `y` at lane `56 h + w`.
  The two half sums over 2048 padded lanes add up to the spatial sum over the 3136 true positions, the remaining
  960 lanes contributing zero.
-/
import proofs.«130480_g2000206050217453_pallasbulk_295_13_alg».proof.Proof.RHost
import proofs.«130480_g2000206050217453_pallasbulk_295_13_alg».proof.Proof.Spec
import Idealize.ShloMosaic.Lib.KernelVsHost
import Idealize.ShloMosaic.PureOps.Ideal.Laws

set_option maxRecDepth 16384

noncomputable section

namespace Cert.ReferenceIdeal.RefAlg

open Idealize.ShloMosaic Idealize.ShloMosaic.ValueIdx
open Cert.ReferenceIdeal Cert.ReferenceIdeal.RefHost

/-- The bit pattern of 1.0 denotes 1. -/
theorem ofBits_one : Ideal.ofBits .f32 0x3F800000#32 = 1 := by
  simp [Ideal.ofBits, Ideal.ieee, -EReal.coe_mul]; norm_num

/-- The bit pattern of 3136.0 denotes the real 3136. -/
theorem ofBits_3136 : Ideal.ofBits .f32 0x45440000#32 = ((3136 : ℝ) : EReal) := by
  simp [Ideal.ofBits, Ideal.ieee, -EReal.coe_mul]; norm_num

/-- The host's quotient 1.0 / 3136.0 is the reciprocal 1 / 3136. -/
theorem one_div_3136 :
    Ideal.div (Ideal.ofBits .f32 0x3F800000#32) (Ideal.ofBits .f32 0x45440000#32) = Cert.Spec.inv := by
  rw [ofBits_one, ofBits_3136, Ideal.div_coe (by norm_num : (3136 : ℝ) ≠ 0), one_mul]
  rfl

/-- Below lane 3136 the padded activation is the activation at the lane's row and column of the 56 × 56 map. -/
theorem padded_lt (x : FVec Ideal S64x256x56x56 .f32) (n : Fin 64) (k : Fin 256) (l : Fin 4096) (h : l.val < 3136) :
    padded x (ix3 n k l)
      = x (ix4 n k ⟨l.val / 56, by omega⟩ ⟨l.val % 56, Nat.mod_lt _ (by decide)⟩) := by
  unfold padded
  refine (pad_apply_of_inside _ _ _ _ _ _ _ (ix3 n k l) (ix3 n k (⟨l.val, h⟩ : Fin 3136)) (fun a => ?_)).trans ?_
  · match a with
    | ⟨0, _⟩ => show n.val = 0 + n.val * (0 + 1); omega
    | ⟨1, _⟩ => show k.val = 0 + k.val * (0 + 1); omega
    | ⟨2, _⟩ => show l.val = 0 + l.val * (0 + 1); omega
  · refine shapeCast_apply _ _ _ (ix4 n k ⟨l.val / 56, by omega⟩ ⟨l.val % 56, Nat.mod_lt _ (by decide)⟩) ?_
    rw [Shape.rowMajor_val_four, Shape.rowMajor_val_three]
    show ((n.val * 256 + k.val) * 56 + l.val / 56) * 56 + l.val % 56 = (n.val * 256 + k.val) * 3136 + l.val
    omega

/-- From lane 3136 on the padded activation is zero. -/
theorem padded_ge (x : FVec Ideal S64x256x56x56 .f32) (n : Fin 64) (k : Fin 256) (l : Fin 4096) (h : 3136 ≤ l.val) :
    padded x (ix3 n k l) = 0 := by
  unfold padded
  refine (pad_apply_of_not_inside _ _ _ _ _ _ _ (ix3 n k l) (2 : Fin 3) (fun hin => ?_)).trans ?_
  · have h3 : (l.val - 0) / (0 + 1) < 3136 := hin.2.2
    omega
  · show (((0#32 : BitVec 32).toInt : ℝ) : EReal) = 0
    simp

/-- The cut and unflattened array at (n, c, h, w) is the array at lane 56 h + w. -/
theorem unpadded_apply (y : FVec Ideal S64x256x4096 .f32) (n : Fin 64) (c : Fin 256) (h w : Fin 56) :
    unpadded y (ix4 n c h w) = y (ix3 n c ⟨56 * h.val + w.val, by have := h.isLt; have := w.isLt; omega⟩) := by
  unfold unpadded
  refine (shapeCast_apply _ _ (ix4 n c h w)
    (ix3 n c (⟨56 * h.val + w.val, by have := h.isLt; have := w.isLt; omega⟩ : Fin 3136)) ?_).trans ?_
  · rw [Shape.rowMajor_val_four, Shape.rowMajor_val_three]
    show (n.val * 256 + c.val) * 3136 + (56 * h.val + w.val) = ((n.val * 256 + c.val) * 56 + h.val) * 56 + w.val
    omega
  · refine extractStridedSlice_apply _ _ _ _ _ (fun a => ?_)
    match a with
    | ⟨0, _⟩ => show n.val = 0 + n.val; omega
    | ⟨1, _⟩ => show c.val = 0 + c.val; omega
    | ⟨2, _⟩ => show 56 * h.val + w.val = 0 + (56 * h.val + w.val); omega

end Cert.ReferenceIdeal.RefAlg

end
-- ==== Proof.RGate.lean ====
/-
  The gate read at an index.

  The host's matrix product of the scaled pooled sums L : [64, 256] with the transposed weight R : [256, 256]
  is, at (n, c), the sum over k of L[n, k] · R[k, c]; with L[n, k] = P[n, k, 0] · (1 / 3136) and R[k, c] = wgt[c, k]
  the gate at (n, c, 0) is the logistic function of  ∑ₖ (P[n, k, 0] · (1 / 3136)) · wgt[c, k],
  the host spelling the logistic function as 1 / (1 + e^(-z)).
-/
import proofs.«130480_g2000206050217453_pallasbulk_295_13_alg».proof.Proof.RAlg

set_option maxRecDepth 16384

noncomputable section

namespace Cert.ReferenceIdeal.RefAlg

open Idealize.ShloMosaic Idealize.ShloMosaic.ValueIdx
open Cert.ReferenceIdeal Cert.ReferenceIdeal.Facts₀ Cert.ReferenceIdeal.RefHost

/-- Row coordinate of the left operand's index: the output's row. -/
theorem lhs0 (i : S64x256.Idx) (q : dot_S64x256_S256x256_S64x256_1_0_0_1_n_n.contr.Idx) :
    (dot_S64x256_S256x256_S64x256_1_0_0_1_n_n.lhsIdx i q 0).val = (i 0).val := by
  unfold DotDims.lhsIdx
  rw [dif_neg (show ¬(0 : Fin S64x256.rank) ∈ dot_S64x256_S256x256_S64x256_1_0_0_1_n_n.lhsBatch by decide),
    dif_pos (show (0 : Fin S64x256.rank) ∈ dot_S64x256_S256x256_S64x256_1_0_0_1_n_n.lhsNonContracting by decide)]
  rfl
/-- Column coordinate of the left operand's index: the contracted coordinate. -/
theorem lhs1 (i : S64x256.Idx) (q : dot_S64x256_S256x256_S64x256_1_0_0_1_n_n.contr.Idx) :
    (dot_S64x256_S256x256_S64x256_1_0_0_1_n_n.lhsIdx i q 1).val = (q ⟨0, by decide⟩).val :=
  dot_S64x256_S256x256_S64x256_1_0_0_1_n_n.lhsIdx_val_of_single rfl i q
/-- Row coordinate of the right operand's index: the contracted coordinate. -/
theorem rhs0 (i : S64x256.Idx) (q : dot_S64x256_S256x256_S64x256_1_0_0_1_n_n.contr.Idx) :
    (dot_S64x256_S256x256_S64x256_1_0_0_1_n_n.rhsIdx i q 0).val = (q ⟨0, by decide⟩).val :=
  dot_S64x256_S256x256_S64x256_1_0_0_1_n_n.rhsIdx_val_of_single rfl i q
/-- Column coordinate of the right operand's index: the output's column. -/
theorem rhs1 (i : S64x256.Idx) (q : dot_S64x256_S256x256_S64x256_1_0_0_1_n_n.contr.Idx) :
    (dot_S64x256_S256x256_S64x256_1_0_0_1_n_n.rhsIdx i q 1).val = (i 1).val := by
  unfold DotDims.rhsIdx
  rw [dif_neg (show ¬(1 : Fin S256x256.rank) ∈ dot_S64x256_S256x256_S64x256_1_0_0_1_n_n.rhsBatch by decide),
    dif_pos (show (1 : Fin S256x256.rank) ∈ dot_S64x256_S256x256_S64x256_1_0_0_1_n_n.rhsNonContracting by decide)]
  rfl

/-- The host's product of a [64, 256] with a [256, 256] matrix at (n, c): the sum over the shared axis. -/
theorem dot_apply (L : FVec Ideal S64x256 .f32) (R : FVec Ideal S256x256 .f32) (n : Fin 64) (c : Fin 256) :
    Host.dotGeneral (F := Ideal) dot_S64x256_S256x256_S64x256_1_0_0_1_n_n none L R (ix2 n c)
      = ∑ k : Fin 256, L (ix2 n k) * R (ix2 k c) := by
  simp only [Host.dotGeneral]
  rw [Ideal.dotGeneral_apply, ← Equiv.sum_comp (contrEquiv1 dot_S64x256_S256x256_S64x256_1_0_0_1_n_n 256 rfl rfl).symm]
  refine Finset.sum_congr rfl fun k _ => ?_
  have hk := contrEquiv1_symm_val dot_S64x256_S256x256_S64x256_1_0_0_1_n_n 256 rfl rfl k
  have el : dot_S64x256_S256x256_S64x256_1_0_0_1_n_n.lhsIdx (ix2 n c)
      ((contrEquiv1 dot_S64x256_S256x256_S64x256_1_0_0_1_n_n 256 rfl rfl).symm k) = ix2 n k := funext fun a => Fin.ext (by
    match a with
    | ⟨0, _⟩ => exact lhs0 _ _
    | ⟨1, _⟩ => exact (lhs1 _ _).trans hk)
  have er : dot_S64x256_S256x256_S64x256_1_0_0_1_n_n.rhsIdx (ix2 n c)
      ((contrEquiv1 dot_S64x256_S256x256_S64x256_1_0_0_1_n_n 256 rfl rfl).symm k) = ix2 k c := funext fun a => Fin.ext (by
    match a with
    | ⟨0, _⟩ => exact (rhs0 _ _).trans hk
    | ⟨1, _⟩ => exact rhs1 _ _)
  rw [el, er]

/-- The gate column at (n, c, 0): the logistic function of the scaled pooled sums against row c of the weight. -/
theorem gate_apply (P : FVec Ideal S64x256x1 .f32) (wgt : FVec Ideal S256x256 .f32) (n : Fin 64) (c : Fin 256) (u : Fin 1) :
    gate P wgt (ix3 n c u)
      = Ideal.logistic (∑ k : Fin 256, (P (ix3 n k (0 : Fin 1)) * Cert.Spec.inv) * wgt (ix2 c k)) := by
  have hone : ∀ j : S64x256.Idx,
      broadcastInDim S64x256 ![] bcast_S_S64x256 (constant (F := Ideal) S_ .f32 0x3F800000#32) j = (1 : EReal) := fun j =>
    (broadcastInDim_apply _ _ _ j ix0 (fun a => a.elim0)).trans ofBits_one
  have hinv : ∀ j : S64x256.Idx,
      broadcastInDim S64x256 ![] bcast_S_S64x256
        (Host.divf (F := Ideal) (φ := .f32) (constant (F := Ideal) S_ .f32 0x3F800000#32)
          (constant (F := Ideal) S_ .f32 0x45440000#32)) j = Cert.Spec.inv := fun j =>
    (broadcastInDim_apply _ _ _ j ix0 (fun a => a.elim0)).trans one_div_3136
  have hP : ∀ k : Fin 256, shapeCast S64x256 P shapeCasts_S64x256x1_S64x256 (ix2 n k) = P (ix3 n k (0 : Fin 1)) := fun k => by
    refine shapeCast_apply _ _ (ix2 n k) (ix3 n k (0 : Fin 1)) ?_
    rw [Shape.rowMajor_val_three, Shape.rowMajor_val_two]
    show (n.val * 256 + k.val) * 1 + 0 = n.val * 256 + k.val
    omega
  have hW : ∀ k : Fin 256, transpose S256x256 [1, 0] wgt transposes_S256x256_S256x256_1_0 (ix2 k c) = wgt (ix2 c k) := fun k =>
    transpose_apply _ _ _ (ix2 k c) (ix2 c k) (fun b => by
      match b with
      | ⟨0, _⟩ => rfl
      | ⟨1, _⟩ => rfl)
  unfold gate
  refine (broadcastInDim_apply _ _ _ (ix3 n c u) (ix2 n c) (fun a => ?_)).trans ?_
  · match a with
    | ⟨0, _⟩ => rfl
    | ⟨1, _⟩ => rfl
  simp only [Host.divf, Host.exp, Host.negf, addf, mulf, Ideal.hostDivf_def, Ideal.hostUnary_exp_def, Ideal.hostNegf_def,
    Ideal.negf_def, Ideal.addf_def, Ideal.mulf_def]
  rw [hone, dot_apply]
  simp only [mulf, Ideal.mulf_def, hinv, hP, hW]
  rfl

end Cert.ReferenceIdeal.RefAlg

end
-- ==== Proof.RPool.lean ====
/-
  The two half sums of the padded activation are the spatial sum.

  Lanes 0 … 2047 and 2048 … 4095 of channel k of batch element n of the padded activation, summed separately and
  added, give the sum over all 4096 lanes; the lanes from 3136 on hold zero, and lane l < 3136 holds the activation
  at row l / 56 and column l % 56.  Only commutativity and associativity of addition on the extended reals are used.
-/
import proofs.«130480_g2000206050217453_pallasbulk_295_13_alg».proof.Proof.RAlg

set_option maxRecDepth 16384

noncomputable section

namespace Cert.ReferenceIdeal.RefAlg

open Idealize.ShloMosaic Idealize.ShloMosaic.ValueIdx
open Cert.ReferenceIdeal Cert.ReferenceIdeal.Gen Cert.ReferenceIdeal.Facts₀ Cert.ReferenceIdeal.RefHost

/-- A sequence that vanishes from 3136 on: its first 2048 terms plus its next 2048 terms are its first 3136 terms. -/
theorem two_halves (g : ℕ → EReal) (hz : ∀ l, 3136 ≤ l → g l = 0) :
    (∑ j ∈ Finset.range 2048, g j) + (∑ j ∈ Finset.range 2048, g (2048 + j)) = ∑ l ∈ Finset.range 3136, g l := by
  rw [← Finset.sum_range_add g 2048 2048, show 2048 + 2048 = 3136 + 960 from rfl, Finset.sum_range_add g 3136 960,
    Finset.sum_eq_zero (fun j _ => hz _ (Nat.le_add_right _ _)), add_zero]

/-- The padded activation's lane `l` of channel `k` of batch element `n`, as a sequence in `l` (zero past the array). -/
def lane (x : FVec Ideal S64x256x56x56 .f32) (n : Fin 64) (k : Fin 256) (l : ℕ) : EReal :=
  if h : l < 4096 then padded x (ix3 n k (⟨l, h⟩ : Fin 4096)) else 0

theorem lane_of_lt (x : FVec Ideal S64x256x56x56 .f32) (n : Fin 64) (k : Fin 256) (l : ℕ) (h : l < 4096) :
    lane x n k l = padded x (ix3 n k (⟨l, h⟩ : Fin 4096)) := dif_pos h

theorem lane_zero (x : FVec Ideal S64x256x56x56 .f32) (n : Fin 64) (k : Fin 256) (l : ℕ) (h : 3136 ≤ l) :
    lane x n k l = 0 := by
  unfold lane
  by_cases h4 : l < 4096
  · rw [dif_pos h4]; exact padded_ge x n k ⟨l, h4⟩ h
  · rw [dif_neg h4]

/-- The first half sum plus the second half sum of the padded lanes is the spatial sum of the activation. -/
theorem half_sums (x : FVec Ideal S64x256x56x56 .f32) (n : Fin 64) (k : Fin 256) :
    (∑ j : Fin 2048, padded x (ix3 n k (⟨j.val, by have := j.isLt; omega⟩ : Fin 4096)))
      + (∑ j : Fin 2048, padded x (ix3 n k (⟨2048 + j.val, by have := j.isLt; omega⟩ : Fin 4096)))
      = Cert.Spec.pool x n k := by
  have e1 : (∑ j : Fin 2048, padded x (ix3 n k (⟨j.val, by have := j.isLt; omega⟩ : Fin 4096)))
      = ∑ j ∈ Finset.range 2048, lane x n k j := by
    rw [← Fin.sum_univ_eq_sum_range (fun l => lane x n k l) 2048]
    exact Finset.sum_congr rfl fun j _ => (lane_of_lt x n k j.val (by have := j.isLt; omega)).symm
  have e2 : (∑ j : Fin 2048, padded x (ix3 n k (⟨2048 + j.val, by have := j.isLt; omega⟩ : Fin 4096)))
      = ∑ j ∈ Finset.range 2048, lane x n k (2048 + j) := by
    rw [← Fin.sum_univ_eq_sum_range (fun l => lane x n k (2048 + l)) 2048]
    exact Finset.sum_congr rfl fun j _ => (lane_of_lt x n k (2048 + j.val) (by have := j.isLt; omega)).symm
  have e3 : Cert.Spec.pool x n k = ∑ l ∈ Finset.range 3136, lane x n k l := by
    unfold Cert.Spec.pool
    rw [← Fin.sum_univ_eq_sum_range (fun l => lane x n k l) 3136]
    refine Finset.sum_congr rfl fun j _ => ?_
    rw [lane_of_lt x n k j.val (by have := j.isLt; omega), padded_lt x n k ⟨j.val, by have := j.isLt; omega⟩ j.isLt]
    rfl
  rw [e1, e2, e3]
  exact two_halves _ (lane_zero x n k)

end Cert.ReferenceIdeal.RefAlg

end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.R0Pay.lean ====
/-
  The pooling kernel's two stores, read at an index.  The reset stores the zero column.  The accumulating store holds,
  at row p of the [1, 256, 1] column, what the column held at row p before plus the sum over the 2048 lanes of row p of
  the loaded [1, 256, 2048] block.
-/
import proofs.«130480_g2000206050217453_pallasbulk_295_13_alg».proof.Proof.Gen.ReferenceIdeal.Skeleton
import proofs.«130480_g2000206050217453_pallasbulk_295_13_alg».proof.Proof.LibColumn
import Idealize.ShloMosaic.Lib.ValueLayout
import Idealize.ShloMosaic.PureOps.Ideal.Laws

noncomputable section

namespace Cert.ReferenceIdeal.RegionValue

open Cert.ReferenceIdeal Idealize.ShloMosaic Idealize.ShloMosaic.ValueIdx

/-- The column the reset stores is zero at every row. -/
theorem pool_reset_apply (u : Fin 1) (p : Fin 256) (z : Fin 1) : Gen.k0_pay1 (F := Ideal) (ix3 u p z) = 0 := by
  unfold Gen.k0_pay1
  refine (shapeCast_ab_1ab_apply _ _ u p z).trans ?_
  show Ideal.ofBits .f32 0x00000000#32 = 0
  exact Ideal.ofBits_zero_f32

/-- The accumulating store at row p: the column's previous entry at row p plus the lane sum of row p of the block. -/
theorem pool_acc_apply (v3 : Vec Ideal S1x256x1 .f32) (v5 : Vec Ideal S1x256x2048 .f32)
    (u : Fin 1) (p : Fin 256) (z : Fin 1) :
    Gen.k0_pay2 (F := Ideal) v3 v5 (ix3 u p z)
      = v3 (ix3 (0 : Fin 1) p (0 : Fin 1)) + ∑ k : Fin 2048, v5 (ix3 (0 : Fin 1) p k) := by
  obtain rfl : z = 0 := Subsingleton.elim _ _
  unfold Gen.k0_pay2
  refine (shapeCast_ab_1ab_apply _ _ u p (0 : Fin 1)).trans ?_
  refine (addf_apply _ _ _).trans ?_
  refine congrArg₂ (· + ·) ?_ ?_
  · exact shapeCast_1ab_ab_apply v3 _ p (0 : Fin 1)
  · refine (Cert.LibColumn.shapeCast_a_a1_apply _ _ p (0 : Fin 1)).trans ?_
    refine (Ideal.multiReduction_add_single _ _ _ _ _ (ix1 p)).trans ?_
    refine Finset.sum_congr rfl fun k _ => ?_
    have e : (Gen.reduces_S256x2048_S256).lift (ix1 p) k = ix2 p k := by
      funext a; apply Fin.ext
      match a with
      | ⟨0, _⟩ => rfl
      | ⟨1, _⟩ => rfl
    exact (congrArg (shapeCast S256x2048 v5 Gen.shapeCasts_S1x256x2048_S256x2048) e).trans
      (shapeCast_1ab_ab_apply v5 _ p k)

end Cert.ReferenceIdeal.RegionValue

end
-- ==== Proof.R0Out.lean ====
/-
  What the pooling kernel's body leaves in the staging buffer of its [1, 256, 1] output block, in each of its two control
  cases, as the body's arithmetic applied to the buffers it was run on.  At a point that resets (second grid coordinate 0)
  the body stores the zero column, reads it back and stores the accumulating term over it and the loaded block; at the
  other points it stores the accumulating term over what the buffer held and the loaded block.
-/
import proofs.«130480_g2000206050217453_pallasbulk_295_13_alg».proof.Proof.Gen.ReferenceIdeal.Frame
import Idealize.ShloMosaic.Lib.Pipeline.Value
import Idealize.ShloMosaic.Lib.Tactic

noncomputable section

namespace Cert.ReferenceIdeal.RegionValue

open Cert.ReferenceIdeal Cert.ReferenceIdeal.Gen Idealize.ShloMosaic Idealize.ShloMosaic.TcCoe Idealize.SL.Sem

variable {F : FTy → Type} [FloatOps F]

theorem pool_hz : (![0, 0, 0] : Fin 3 → Nat) = fun _ => 0 := funext fun a => by fin_cases a <;> rfl

/-- A point that does not reset: the buffer holding xo ends holding the accumulating term of xo and the block x. -/
theorem pool_out_B (c : Dev nD) (i : grid0.Coords) (a2 : Memref sig .tc .vmem S1x256x2048 .f32) (h2 : a2.IsWhole)
    (a3 : Memref sig .tc .vmem S1x256x1 .f32) (h3 : a3.IsWhole) (hc : ¬cond0_0 i)
    (x : Vec F S1x256x2048 .f32) (xo : Vec F S1x256x1 .f32) :
    out0_B_1 c i a2 h2 a3 h3 hc x xo = k0_pay2 xo x := by
  unfold out0_B_1
  rw [View.read_writes_eq_canon _ _ _ (cover0_B_1 c i a2 h2 a3 h3 hc x xo)]
  unfold kernelRun0_B
  dsimp only
  try sl_unfold_words
  rw [View.canon_unit_zero pool_hz]
  simp only [View.readAt_eq_ld, h2.read_unread, h3.read_unread, View.ld_unit_zero (S := S1x256x2048) pool_hz,
    View.ld_unit_zero (S := S1x256x1) pool_hz]

/-- A point that resets: the buffer ends holding the accumulating term of the zero column and the block x. -/
theorem pool_out_A (c : Dev nD) (i : grid0.Coords) (a2 : Memref sig .tc .vmem S1x256x2048 .f32) (h2 : a2.IsWhole)
    (a3 : Memref sig .tc .vmem S1x256x1 .f32) (h3 : a3.IsWhole) (hc : cond0_0 i)
    (x : Vec F S1x256x2048 .f32) :
    out0_A_1 c i a2 h2 a3 h3 hc x = k0_pay2 k0_pay1 x := by
  unfold out0_A_1
  rw [View.read_writes_eq_canon _ _ _ (cover0_A_1 c i a2 h2 a3 h3 hc x)]
  unfold kernelRun0_A
  dsimp only
  try sl_unfold_words
  rw [View.canon_cons_unit_zero (S := S1x256x1) pool_hz, View.readCov_unit_zero (S := S1x256x1) _ pool_hz]
  simp only [View.readAt_eq_ld, h2.read_unread, View.ld_unit_zero (S := S1x256x2048) pool_hz]

end Cert.ReferenceIdeal.RegionValue

end
-- ==== Proof.R0.lean ====
/-
  The pooling region read as one function of the padded activation it finds.  Its grid has 64 x 2 points; point (n, h)
  takes rows n, all 256 channels and lanes 2048 h .. 2048 h + 2047 of the padded activation [64, 256, 4096], and its output
  block is row n of the pooled column [64, 256, 1], which stays in its staging buffer from point (n, 0) to point (n, 1) and is
  written back after (n, 1) only.  At (n, 0) the body resets the block to zero and adds the lane sums of the first half:
  the block holds 0 + (sum of the first 2048 lanes).  At (n, 1) it adds the lane sums of the second half onto that.  The one
  write-back per row therefore writes, at channel c, the first-half lane sum plus the second-half lane sum (the leading
  zero is dropped by 0 + a = a, which holds on the extended reals), and every index (n, c, 0) of the pooled column lies in
  the block of point (n, 1).
-/
import proofs.«130480_g2000206050217453_pallasbulk_295_13_alg».proof.Proof.Gen.ReferenceIdeal.Frame
import proofs.«130480_g2000206050217453_pallasbulk_295_13_alg».proof.Proof.R0Pay
import proofs.«130480_g2000206050217453_pallasbulk_295_13_alg».proof.Proof.R0Out
import Idealize.ShloMosaic.Lib.Pipeline.Value

noncomputable section

namespace Cert.ReferenceIdeal.RegionValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What the pooling region leaves in its output array [64, 256, 1]: at (n, c, 0) the sum of the first 2048 lanes of row
    (n, c) of the padded activation plus the sum of its last 2048 lanes (the zero the reset adds in front is dropped). -/
def pooled (xp : Vec Ideal S64x256x4096 .f32) : Vec Ideal S64x256x1 .f32 := fun i =>
  (∑ j : Fin 2048, xp (ix3 (i 0) (i 1) ⟨j.val, by have := j.isLt; omega⟩))
    + ∑ j : Fin 2048, xp (ix3 (i 0) (i 1) ⟨2048 + j.val, by have := j.isLt; omega⟩)

/-- The two index maps over the grid: point t = 2 n + h has block index (n, 0, h) in the padded activation and (n, 0, 0)
    in the pooled column. -/
theorem pool_idx : ∀ t : Fin cfg0.N,
    win0_0.index t (0 : Fin 3) = t.val / 2 ∧ win0_0.index t (1 : Fin 3) = 0 ∧ win0_0.index t (2 : Fin 3) = t.val % 2
    ∧ win0_1.index t (0 : Fin 3) = t.val / 2 ∧ win0_1.index t (1 : Fin 3) = 0 ∧ win0_1.index t (2 : Fin 3) = 0 :=
  (by decide +kernel : ∀ t : Fin grid0.N, _)

/-- The activation block of point t at (0, p, l) is the padded activation at row t / 2, channel p, lane
    2048 (t % 2) + l. -/
theorem pool_iblk (c : Dev nD) (t : Fin cfg0.N) (p : Fin 256) (l : Fin 2048) (k : S64x256x4096.Idx)
    (hk0 : (k 0).val = t.val / 2) (hk1 : (k 1).val = p.val) (hk2 : (k 2).val = 2048 * (t.val % 2) + l.val) :
    (iblk0 V c 0 t : Vec Ideal S1x256x2048 .f32) (ix3 (0 : Fin 1) p l) = V c main_v1 k := by
  obtain ⟨a0, a1, a2, -, -, -⟩ := pool_idx t
  show V c main_v1 (((cfg0.win 0).blk t).view.emb (ix3 (0 : Fin 1) p l)) = V c main_v1 k
  congr 1
  funext a; apply Fin.ext
  match a with
  | ⟨0, _⟩ => show win0_0.index t (0 : Fin 3) * 1 + 1 * 0 = (k 0).val; omega
  | ⟨1, _⟩ => show win0_0.index t (1 : Fin 3) * 256 + 1 * p.val = (k 1).val; omega
  | ⟨2, _⟩ => show win0_0.index t (2 : Fin 3) * 2048 + 1 * l.val = (k 2).val; omega

/-- The accumulation of one row against the whole-array function: if xa is the first-half block and xb the second-half
    block of row n of xp, then resetting, adding xa's lane sums and adding xb's lane sums leaves, at y, the pooled column at
    the index with coordinates (n, y 1, ·). -/
theorem pool_block (xp : Vec Ideal S64x256x4096 .f32) (xa xb : Vec Ideal S1x256x2048 .f32) (n : Nat)
    (ha : ∀ (p : Fin 256) (l : Fin 2048) (k : S64x256x4096.Idx), (k 0).val = n → (k 1).val = p.val →
      (k 2).val = l.val → xa (ix3 (0 : Fin 1) p l) = xp k)
    (hb : ∀ (p : Fin 256) (l : Fin 2048) (k : S64x256x4096.Idx), (k 0).val = n → (k 1).val = p.val →
      (k 2).val = 2048 + l.val → xb (ix3 (0 : Fin 1) p l) = xp k)
    (y : S1x256x1.Idx) (i : S64x256x1.Idx) (hi0 : (i 0).val = n) (hi1 : (i 1).val = (y 1).val) :
    Gen.k0_pay2 (F := Ideal) (Gen.k0_pay2 (F := Ideal) (Gen.k0_pay1 (F := Ideal)) xa) xb y = pooled xp i := by
  obtain ⟨u, p, z, rfl⟩ : ∃ (u : Fin 1) (p : Fin 256) (z : Fin 1), y = ix3 u p z := ⟨y 0, y 1, y 2, eq_ix3 y⟩
  rw [pool_acc_apply, pool_acc_apply, pool_reset_apply, zero_add]
  unfold pooled
  refine congrArg₂ (· + ·) (Finset.sum_congr rfl fun l _ => ?_) (Finset.sum_congr rfl fun l _ => ?_)
  · exact ha p l _ hi0 hi1 rfl
  · exact hb p l _ hi0 hi1 rfl

/-- What the staging buffer of the pooled block holds after an odd point t = 2 n + 1: the reset and the first half's lane
    sums from point t - 1, then the second half's lane sums from point t. -/
theorem pool_outs_odd (c : Dev nD) (t : Fin cfg0.N) (h1 : t.val % 2 = 1) (hlt : t.val - 1 < cfg0.N) :
    outsAt0 V c t.val t.isLt
      = Gen.k0_pay2 (F := Ideal) (Gen.k0_pay2 (F := Ideal) (Gen.k0_pay1 (F := Ideal)) (iblk0 V c 0 ⟨t.val - 1, hlt⟩)) (iblk0 V c 0 t) := by
  have h0 : ¬ t.val % 2 = 0 := by omega
  have hp : (⟨t.val - 1, hlt⟩ : Fin cfg0.N).val % 2 = 0 := by show (t.val - 1) % 2 = 0; omega
  refine (outsAt0_B V c t h0).trans ?_
  refine (pool_out_B c (grid0.coords t) (ms0_0 t) (hs0_0 t) (ms0_1 t) (hs0_1 t) (fun h => h0 ((hcond0_0 t).mp h))
    (iblk0 V c 0 t) (outsAt0 V c (t.val - 1) (Nat.lt_of_le_of_lt (Nat.sub_le _ _) t.isLt))).trans ?_
  refine congrArg (fun z => Gen.k0_pay2 (F := Ideal) z (iblk0 V c 0 t)) ?_
  refine (outsAt0_A V c ⟨t.val - 1, hlt⟩ hp).trans ?_
  exact pool_out_A c (grid0.coords ⟨t.val - 1, hlt⟩) (ms0_0 ⟨t.val - 1, hlt⟩) (hs0_0 ⟨t.val - 1, hlt⟩)
    (ms0_1 ⟨t.val - 1, hlt⟩) (hs0_1 ⟨t.val - 1, hlt⟩) ((hcond0_0 ⟨t.val - 1, hlt⟩).mpr hp) (iblk0 V c 0 ⟨t.val - 1, hlt⟩)

/-- What a point that writes back (an odd point) writes is its block of the pooled column. -/
theorem pool_flushed (c : Dev nD) (t : Fin cfg0.N) (hf : (cfg0.win 1).flush t = true) :
    (dat0 V c).flushed 1 t = ((cfg0.win 1).blk t).view.read (Elt Ideal) (pooled (V c main_v1)) := by
  have hN : t.val < 128 := lt_of_lt_of_eq t.isLt (show cfg0.N = 128 from N_0)
  have h1 : t.val % 2 = 1 := (flush0_1 t).mp hf
  have hlt : t.val - 1 < cfg0.N := Nat.lt_of_le_of_lt (Nat.sub_le _ _) t.isLt
  show (cfg0.win 1).cut (grid0.coords t) ((dat0 V c).after 1 t) = _
  rw [after0_1, pool_outs_odd V c t h1 hlt]
  obtain ⟨-, -, -, b0, b1, b2⟩ := pool_idx t
  funext j
  refine pool_block (V c main_v1) (iblk0 V c 0 ⟨t.val - 1, hlt⟩) (iblk0 V c 0 t) (t.val / 2) ?_ ?_ j
    (((cfg0.win 1).blk t).view.emb j) ?_ ?_
  · intro p l k hk0 hk1 hk2
    exact pool_iblk V c ⟨t.val - 1, hlt⟩ p l k (by show (k 0).val = (t.val - 1) / 2; omega) hk1
      (by show (k 2).val = 2048 * ((t.val - 1) % 2) + l.val; omega)
  · intro p l k hk0 hk1 hk2
    exact pool_iblk V c t p l k hk0 hk1 (by omega)
  · have hj : (j 0).val < 1 := (j 0).isLt
    show win0_1.index t (0 : Fin 3) * 1 + 1 * (j 0).val = t.val / 2; omega
  · show win0_1.index t (1 : Fin 3) * 256 + 1 * (j 1).val = (j 1).val; omega

/-- An index of the pooled column is in point t's block iff each coordinate is in the block's range on its axis. -/
theorem pool_mem_blk (t : Fin cfg0.N) (i : S64x256x1.Idx) :
    i ∈ ((cfg0.win 1).blk t).view.set ↔ ∀ a : Fin 3, win0_1.index t a * S1x256x1.size a ≤ (i a).val
      ∧ (i a).val < win0_1.index t a * S1x256x1.size a + S1x256x1.size a := by
  show i ∈ ((View.whole main_v2).slice (win0_1.rect t)).set ↔ _
  rw [View.set_slice_whole, Rect.mem_set_unit]
  exact Iff.rfl

/-- Every index (n, c, 0) of the pooled column is in the block of the point 2 n + 1, which writes back. -/
theorem pool_cover (i : S64x256x1.Idx) :
    ∃ t : Fin cfg0.N, (cfg0.win 1).flush t = true ∧ i ∈ ((cfg0.win 1).blk t).view.set := by
  have hi0 : (i 0).val < 64 := (i 0).isLt
  have hi1 : (i 1).val < 256 := (i 1).isLt
  have hi2 : (i 2).val < 1 := (i 2).isLt
  have hT : 2 * (i 0).val + 1 < cfg0.N := lt_of_lt_of_eq (by omega) (show cfg0.N = 128 from N_0).symm
  refine ⟨⟨2 * (i 0).val + 1, hT⟩, (flush0_1 _).mpr (by show (2 * (i 0).val + 1) % 2 = 1; omega), ?_⟩
  rw [pool_mem_blk]
  obtain ⟨-, -, -, b0, b1, b2⟩ := pool_idx ⟨2 * (i 0).val + 1, hT⟩
  have b0' : win0_1.index ⟨2 * (i 0).val + 1, hT⟩ (0 : Fin 3) = (2 * (i 0).val + 1) / 2 := b0
  intro a
  match a with
  | ⟨0, _⟩ =>
    show win0_1.index _ (0 : Fin 3) * 1 ≤ (i 0).val ∧ (i 0).val < win0_1.index _ (0 : Fin 3) * 1 + 1
    omega
  | ⟨1, _⟩ =>
    show win0_1.index _ (1 : Fin 3) * 256 ≤ (i 1).val ∧ (i 1).val < win0_1.index _ (1 : Fin 3) * 256 + 256
    omega
  | ⟨2, _⟩ =>
    show win0_1.index _ (2 : Fin 3) * 1 ≤ (i 2).val ∧ (i 2).val < win0_1.index _ (2 : Fin 3) * 1 + 1
    omega

/-- The pooled column after the pooling region's run, for any contents the region is entered with. -/
theorem pool_final (c : Dev nD) : (dat0 V c).arrAt 1 cfg0.N = pooled (V c main_v1) :=
  (dat0 V c).arrAt_eq_of_cover 1 (pooled (V c main_v1)) (fun t hf => pool_flushed V c t hf) pool_cover

end Cert.ReferenceIdeal.RegionValue

end
-- ==== Proof.R1Pay.lean ====
/-
  The scaling kernel's one store, read at an index: the stored [1, 256, 2048] block holds, at (u, p, l), the
  activation block's entry at (0, p, l) times the gate column's entry at row p.
-/
import proofs.«130480_g2000206050217453_pallasbulk_295_13_alg».proof.Proof.Gen.ReferenceIdeal.Skeleton
import proofs.«130480_g2000206050217453_pallasbulk_295_13_alg».proof.Proof.LibColumn
import Idealize.ShloMosaic.Lib.ValueLayout

noncomputable section

namespace Cert.ReferenceIdeal.RegionValue

open Cert.ReferenceIdeal Idealize.ShloMosaic Idealize.ShloMosaic.ValueIdx

/-- The stored block at (u, p, l): the block of the activation is viewed as a 256 x 2048 matrix, the gate block as a
    256 x 1 column broadcast along the lanes, and the two are multiplied entry by entry. -/
theorem scale_pay_apply (v0 : Vec Ideal S1x256x2048 .f32) (v2 : Vec Ideal S1x256x1 .f32)
    (u : Fin 1) (p : Fin 256) (l : Fin 2048) :
    Gen.k1_pay1 (F := Ideal) v0 v2 (ix3 u p l) = v0 (ix3 (0 : Fin 1) p l) * v2 (ix3 (0 : Fin 1) p (0 : Fin 1)) := by
  unfold Gen.k1_pay1
  refine (shapeCast_ab_1ab_apply _ _ u p l).trans ?_
  refine (mulf_apply _ _ _).trans ?_
  refine congrArg₂ (· * ·) ?_ ?_
  · exact shapeCast_1ab_ab_apply v0 _ p l
  · refine (Cert.LibColumn.broadcastTo_a1_ab_apply _ _ p l).trans ?_
    exact shapeCast_1ab_ab_apply v2 _ p (0 : Fin 1)

end Cert.ReferenceIdeal.RegionValue

end
-- ==== Proof.R1.lean ====
/-
  The scaling region read as one function of the arrays it finds.  Its grid has 64 x 2 points; point (n, h) takes rows n,
  all 256 channels and lanes 2048 h .. 2048 h + 2047 of the padded activation [64, 256, 4096], takes row n of the gate
  column [64, 256, 1], and writes back the product to the same rows, channels and lanes of the result.  Every index
  (n, c, l) of the result lies in the block of exactly the point (n, l / 2048), so the result array ends holding, at
  (n, c, l), the activation at (n, c, l) times the gate at (n, c, 0).
-/
import proofs.«130480_g2000206050217453_pallasbulk_295_13_alg».proof.Proof.Gen.ReferenceIdeal.Frame
import proofs.«130480_g2000206050217453_pallasbulk_295_13_alg».proof.Proof.R1Pay
import Idealize.ShloMosaic.Lib.Pipeline.Value

noncomputable section

namespace Cert.ReferenceIdeal.RegionValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What the scaling region leaves in its result array [64, 256, 4096]: the activation times the gate of its row and
    channel, at every lane. -/
def scaled (xp : Vec Ideal S64x256x4096 .f32) (g : Vec Ideal S64x256x1 .f32) : Vec Ideal S64x256x4096 .f32 :=
  fun i => xp i * g (ix3 (i 0) (i 1) (0 : Fin 1))

theorem hz3 : (![0, 0, 0] : Fin 3 → Nat) = fun _ => 0 := funext fun a => by fin_cases a <;> rfl

/-- The three index maps over the grid: point t = 2 n + h has block index (n, 0, h) in the activation and in the result,
    and (n, 0, 0) in the gate column. -/
theorem scale_idx : ∀ t : Fin cfg1.N,
    win1_0.index t (0 : Fin 3) = t.val / 2 ∧ win1_0.index t (1 : Fin 3) = 0 ∧ win1_0.index t (2 : Fin 3) = t.val % 2
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = 0 ∧ win1_2.index t (2 : Fin 3) = t.val % 2 :=
  (by decide +kernel : ∀ t : Fin grid1.N, _)

/-- One point's store against the whole-array function: if the activation block is rows n, lanes 2048 h + · of xp and
    the gate block is row n of g, the stored block at y is the scaled array at the index with coordinates
    (n, y 1, 2048 h + y 2). -/
theorem scale_block (xp : Vec Ideal S64x256x4096 .f32) (g : Vec Ideal S64x256x1 .f32)
    (x0 : Vec Ideal S1x256x2048 .f32) (x1 : Vec Ideal S1x256x1 .f32) (n h : Nat)
    (h0 : ∀ (p : Fin 256) (l : Fin 2048) (k : S64x256x4096.Idx), (k 0).val = n → (k 1).val = p.val →
      (k 2).val = 2048 * h + l.val → x0 (ix3 (0 : Fin 1) p l) = xp k)
    (h1 : ∀ (p : Fin 256) (k : S64x256x1.Idx), (k 0).val = n → (k 1).val = p.val →
      x1 (ix3 (0 : Fin 1) p (0 : Fin 1)) = g k)
    (y : S1x256x2048.Idx) (i : S64x256x4096.Idx)
    (hi0 : (i 0).val = n) (hi1 : (i 1).val = (y 1).val) (hi2 : (i 2).val = 2048 * h + (y 2).val) :
    Gen.k1_pay1 (F := Ideal) x0 x1 y = scaled xp g i := by
  obtain ⟨u, p, l, rfl⟩ : ∃ (u : Fin 1) (p : Fin 256) (l : Fin 2048), y = ix3 u p l := ⟨y 0, y 1, y 2, eq_ix3 y⟩
  rw [scale_pay_apply, h0 p l i hi0 hi1 hi2, h1 p (ix3 (i 0) (i 1) (0 : Fin 1)) hi0 hi1]
  rfl

/-- What point t writes back is its block of the scaled array. -/
theorem scale_flushed (c : Dev nD) (t : Fin cfg1.N) :
    (dat1 V c).flushed 2 t = ((cfg1.win 2).blk t).view.read (Elt Ideal) (scaled (V c main_v1) (V c main_v15)) := by
  show (cfg1.win 2).cut (grid1.coords t) ((dat1 V c).after 2 t) = _
  rw [after1_2]
  unfold out1_2
  rw [View.canon_unit_zero hz3]
  simp only [View.ld_unit_zero (S := S1x256x2048) hz3, View.ld_unit_zero (S := S1x256x1) hz3]
  obtain ⟨a0, a1, a2, b0, b1, b2, c0, c1, c2⟩ := scale_idx t
  funext j
  refine scale_block (V c main_v1) (V c main_v15) (iblk1 V c 0 t) (iblk1 V c 1 t) (t.val / 2) (t.val % 2) ?_ ?_ j
    (((cfg1.win 2).blk t).view.emb j) ?_ ?_ ?_
  · intro p l k hk0 hk1 hk2
    show V c main_v1 (((cfg1.win 0).blk t).view.emb (ix3 (0 : Fin 1) p l)) = V c main_v1 k
    congr 1
    funext a; apply Fin.ext
    match a with
    | ⟨0, _⟩ => show win1_0.index t (0 : Fin 3) * 1 + 1 * 0 = (k 0).val; omega
    | ⟨1, _⟩ => show win1_0.index t (1 : Fin 3) * 256 + 1 * p.val = (k 1).val; omega
    | ⟨2, _⟩ => show win1_0.index t (2 : Fin 3) * 2048 + 1 * l.val = (k 2).val; omega
  · intro p k hk0 hk1
    show V c main_v15 (((cfg1.win 1).blk t).view.emb (ix3 (0 : Fin 1) p (0 : Fin 1))) = V c main_v15 k
    congr 1
    funext a; apply Fin.ext
    have hk2 : (k 2).val < 1 := (k 2).isLt
    match a with
    | ⟨0, _⟩ => show win1_1.index t (0 : Fin 3) * 1 + 1 * 0 = (k 0).val; omega
    | ⟨1, _⟩ => show win1_1.index t (1 : Fin 3) * 256 + 1 * p.val = (k 1).val; omega
    | ⟨2, _⟩ => show win1_1.index t (2 : Fin 3) * 1 + 1 * 0 = (k 2).val; omega
  · have hj : (j 0).val < 1 := (j 0).isLt
    show win1_2.index t (0 : Fin 3) * 1 + 1 * (j 0).val = t.val / 2; omega
  · show win1_2.index t (1 : Fin 3) * 256 + 1 * (j 1).val = (j 1).val; omega
  · show win1_2.index t (2 : Fin 3) * 2048 + 1 * (j 2).val = 2048 * (t.val % 2) + (j 2).val; omega

/-- An index of the result is in point t's block iff each coordinate is in the block's range on its axis. -/
theorem scale_mem_blk (t : Fin cfg1.N) (i : S64x256x4096.Idx) :
    i ∈ ((cfg1.win 2).blk t).view.set ↔ ∀ a : Fin 3, win1_2.index t a * S1x256x2048.size a ≤ (i a).val
      ∧ (i a).val < win1_2.index t a * S1x256x2048.size a + S1x256x2048.size a := by
  show i ∈ ((View.whole main_v16).slice (win1_2.rect t)).set ↔ _
  rw [View.set_slice_whole, Rect.mem_set_unit]
  exact Iff.rfl

/-- Every index (n, c, l) of the result is in the block of the point 2 n + l / 2048, which writes back. -/
theorem scale_cover (i : S64x256x4096.Idx) :
    ∃ t : Fin cfg1.N, (cfg1.win 2).flush t = true ∧ i ∈ ((cfg1.win 2).blk t).view.set := by
  have hi0 : (i 0).val < 64 := (i 0).isLt
  have hi1 : (i 1).val < 256 := (i 1).isLt
  have hi2 : (i 2).val < 4096 := (i 2).isLt
  have hT : 2 * (i 0).val + (i 2).val / 2048 < cfg1.N := lt_of_lt_of_eq (by omega) (show cfg1.N = 128 from N_1).symm
  refine ⟨⟨2 * (i 0).val + (i 2).val / 2048, hT⟩, flush1_2 _, ?_⟩
  rw [scale_mem_blk]
  obtain ⟨-, -, -, -, -, -, c0, c1, c2⟩ := scale_idx ⟨2 * (i 0).val + (i 2).val / 2048, hT⟩
  have c0' : win1_2.index ⟨2 * (i 0).val + (i 2).val / 2048, hT⟩ (0 : Fin 3) = (2 * (i 0).val + (i 2).val / 2048) / 2 := c0
  have c2' : win1_2.index ⟨2 * (i 0).val + (i 2).val / 2048, hT⟩ (2 : Fin 3) = (2 * (i 0).val + (i 2).val / 2048) % 2 := c2
  intro a
  match a with
  | ⟨0, _⟩ =>
    show win1_2.index _ (0 : Fin 3) * 1 ≤ (i 0).val ∧ (i 0).val < win1_2.index _ (0 : Fin 3) * 1 + 1
    omega
  | ⟨1, _⟩ =>
    show win1_2.index _ (1 : Fin 3) * 256 ≤ (i 1).val ∧ (i 1).val < win1_2.index _ (1 : Fin 3) * 256 + 256
    omega
  | ⟨2, _⟩ =>
    show win1_2.index _ (2 : Fin 3) * 2048 ≤ (i 2).val ∧ (i 2).val < win1_2.index _ (2 : Fin 3) * 2048 + 2048
    omega

/-- The result array of the scaling region after its run, for any contents it is entered with. -/
theorem scale_final (c : Dev nD) : (dat1 V c).arrAt 2 cfg1.N = scaled (V c main_v1) (V c main_v15) :=
  (dat1 V c).arrAt_eq_of_cover 2 (scaled (V c main_v1) (V c main_v15)) (fun t _ => scale_flushed V c t) scale_cover

end Cert.ReferenceIdeal.RegionValue

end
-- ==== Proof.RValue.lean ====
/-
  The reference's result is the channel gate of its arguments.

  Chaining the boundaries of the run: the result is the scaling region's output cut back to the true lanes; that
  output is the padded activation times the gate column; the gate column is computed from the pooling region's
  output; and the pooling region's output is the two half sums of the padded activation, which add up to the
  spatial sum.  At (n, c, h, w) this is x[n, c, h, w] · σ(∑ₖ (pool x n k · (1 / 3136)) · wgt[c, k]).
-/
import proofs.«130480_g2000206050217453_pallasbulk_295_13_alg».proof.Proof.RHost
import proofs.«130480_g2000206050217453_pallasbulk_295_13_alg».proof.Proof.RGate
import proofs.«130480_g2000206050217453_pallasbulk_295_13_alg».proof.Proof.RPool
import proofs.«130480_g2000206050217453_pallasbulk_295_13_alg».proof.Proof.R0
import proofs.«130480_g2000206050217453_pallasbulk_295_13_alg».proof.Proof.R1
import proofs.«130480_g2000206050217453_pallasbulk_295_13_alg».proof.Proof.Spec

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.RefHost Cert.ReferenceIdeal.RefAlg
open Cert.ReferenceIdeal.RegionValue

variable (m : (ℓ : Loc nD τ sig) → Buf (Elt Ideal) ℓ) (ρ : Dev nD → PrngReg)

/-- The padded activation times the gate of its own half sums, cut back and unflattened, is the channel gate. -/
theorem gated_eq (x : FVec Ideal S64x256x56x56 .f32) (wgt : FVec Ideal S256x256 .f32) :
    unpadded (scaled (padded x) (gate (pooled (padded x)) wgt)) = Cert.Spec.G x wgt := by
  funext i
  obtain ⟨n, ch, h, w, rfl⟩ : ∃ (n : Fin 64) (ch : Fin 256) (h w : Fin 56), i = ix4 n ch h w :=
    ⟨i 0, i 1, i 2, i 3, eq_ix4 i⟩
  rw [unpadded_apply]
  have hl : 56 * h.val + w.val < 3136 := by have := h.isLt; have := w.isLt; omega
  have hx : padded x (ix3 n ch (⟨56 * h.val + w.val, by omega⟩ : Fin 4096)) = x (ix4 n ch h w) := by
    rw [padded_lt x n ch ⟨56 * h.val + w.val, by omega⟩ hl]
    refine congrArg x ?_
    have e1 : (56 * h.val + w.val) / 56 = h.val := by have := w.isLt; omega
    have e2 : (56 * h.val + w.val) % 56 = w.val := by have := w.isLt; omega
    funext a
    match a with
    | ⟨0, _⟩ => rfl
    | ⟨1, _⟩ => rfl
    | ⟨2, _⟩ => exact Fin.ext e1
    | ⟨3, _⟩ => exact Fin.ext e2
  have hg : gate (pooled (padded x)) wgt (ix3 n ch (0 : Fin 1)) = Ideal.logistic (Cert.Spec.gateArg x wgt n ch) := by
    rw [gate_apply]
    refine congrArg Ideal.logistic (Finset.sum_congr rfl fun k _ => ?_)
    have hp : pooled (padded x) (ix3 n k (0 : Fin 1)) = Cert.Spec.pool x n k := half_sums x n k
    rw [hp]
  show padded x (ix3 n ch (⟨56 * h.val + w.val, by omega⟩ : Fin 4096))
      * gate (pooled (padded x)) wgt (ix3 n ch (0 : Fin 1)) = x (ix4 n ch h w) * Ideal.logistic (Cert.Spec.gateArg x wgt n ch)
  rw [hx, hg]

/-- The result buffer's final contents are the channel gate of the argument buffers' launch contents. -/
theorem result_eq (c : Dev nD) :
    (W6 m ρ c (Proc.devRef .tc main_v18) : FVec Ideal S64x256x56x56 .f32)
      = Cert.Spec.G (m ((c : Thread nD τ).loc main_arg0)) (m ((c : Thread nD τ).loc main_arg1)) := by
  rw [W6_v18, scale_final (V4 m ρ) c, V4_v1, V4_v15, pool_final (V2 m ρ) c, V2_v1]
  exact gated_eq _ _

end Cert.ReferenceIdeal.RefValue

end
-- ==== Proof.lean ====
/-
  The squeeze-and-excite channel gate: the fused kernel against the two-pass reference.

  Both programs compute, for an activation x : [64, 256, 56, 56] and a weight wgt : [256, 256],
      out[n, c, h, w] = x[n, c, h, w] · σ( ∑ₖ ( (∑_{j < 3136} x[n, k, j / 56, j % 56]) · (1 / 3136) ) · wgt[c, k] )
  with σ the logistic function (`Cert.Spec.G`).  The kernel holds the activation channels-last, pools four batch
  elements per grid point, multiplies the means into the transposed weight on the matrix unit and scales the block;
  its reciprocal of 3136 is the named constant 1 / 3136.  The reference pads the flattened spatial axis to 4096
  lanes with zeros, pools it in two halves of 2048 lanes accumulated over a grid axis, computes the gate on the
  host as 1 / (1 + e^(-z)) from the quotient 1.0 / 3136.0, and scales in a second region.  On the extended reals the
  two agree index by index: the zero lanes add nothing, a sum may be split and reordered, the host's quotient is
  the reciprocal, and the logistic function is its spelled-out form.  No finiteness of the inputs is used.
-/
import proofs.«130480_g2000206050217453_pallasbulk_295_13_alg».proof.Defs
import proofs.«130480_g2000206050217453_pallasbulk_295_13_alg».proof.Proof.Gen.Kernel
import proofs.«130480_g2000206050217453_pallasbulk_295_13_alg».proof.Proof.Gen.Kernel.Frame
import proofs.«130480_g2000206050217453_pallasbulk_295_13_alg».proof.Proof.Gen.KernelIdeal
import proofs.«130480_g2000206050217453_pallasbulk_295_13_alg».proof.Proof.Gen.KernelIdeal.Frame
import proofs.«130480_g2000206050217453_pallasbulk_295_13_alg».proof.Proof.Gen.ReferenceIdeal
import proofs.«130480_g2000206050217453_pallasbulk_295_13_alg».proof.Proof.Gen.ReferenceIdeal.Frame
import proofs.«130480_g2000206050217453_pallasbulk_295_13_alg».proof.Proof.Gen.Pre_finite_inputs
import proofs.«130480_g2000206050217453_pallasbulk_295_13_alg».proof.Proof.KRun
import proofs.«130480_g2000206050217453_pallasbulk_295_13_alg».proof.Proof.RRun
import proofs.«130480_g2000206050217453_pallasbulk_295_13_alg».proof.Proof.RValue
import Idealize.ShloMosaic.Adequacy
import Idealize.ShloMosaic.Init

noncomputable section

namespace Cert.Proof

open Idealize.ShloMosaic Idealize.SL.Sem

/-- The word-level kernel runs and leaves its arguments unchanged. -/
theorem frame_kernel : @Cert.frame_Kernel Cert.Kernel.Gen.facts Cert.Pre_finite_inputs.Gen.facts :=
  fun m ρ _ => Cert.Kernel.Gen.frame m ρ

/-- The idealized kernel runs and leaves its arguments unchanged. -/
theorem frame_kernelIdeal : @Cert.frame_KernelIdeal Cert.KernelIdeal.Gen.facts Cert.Pre_finite_inputs.Gen.facts :=
  fun m ρ _ => Cert.KernelIdeal.Gen.frame m ρ

/-- The idealized reference runs and leaves its arguments unchanged. -/
theorem frame_referenceIdeal : @Cert.frame_ReferenceIdeal Cert.ReferenceIdeal.Gen.facts Cert.Pre_finite_inputs.Gen.facts :=
  fun m ρ _ => Cert.ReferenceIdeal.Gen.frame m ρ

/-- The one idealization: the kernel's literal for the reciprocal of 3136 is named, and the name denotes 1 / 3136. -/
theorem preserves : Cert.preserves_Kernel_KernelIdeal :=
  IdealRules.named_const.statement Cert.KernelIdeal.κ "inv_3136" .f32 0x39A72F05#32 ((1 / 3136 : ℝ) : EReal) rfl

/-- From memories agreeing on the arguments both idealized programs end with the channel gate of the arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun r h c => ⟨(h c).1.trans ?_, (h c).2⟩)
    (Cert.ReferenceIdeal.RefRun.run (F := Ideal) m' ρ')
  rw [Cert.ReferenceIdeal.RefValue.result_eq m' ρ' c, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
